-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S384x40 : Shape := ⟨2, ![384, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S384x40 : S_.BroadcastsInDim S384x40 (![] : Fin 0 → Fin S384x40.rank)
  reducesTo_S384x40_S_d0_1 : S384x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S384x40 .f32) (main_arg9 : FVec F S40 .f32) (main_v33 : IVec S_ 1) : IVec S_ 1 :=
  let main_v34 : FVec F S384x40 .f32 := Host.absf main_arg8
  let main_cst_12 : FVec F S_ .f32 := constant S_ .f32 0x7F800000#32
  let main_v35 : FVec F S384x40 .f32 := broadcastInDim S384x40 ![] bcast_S_S384x40 main_cst_12
  let main_v36 : IVec S384x40 1 := cmpf .olt main_v34 main_v35
  let main_c_13 : IVec S_ 1 := constantI S_ 1 1#1
  let main_v37 : IVec S_ 1 := (fun x v => Host.reduce IntOp.andi x v reducesTo_S384x40_S_d0_1 h_S_) main_v36 main_c_13
  let main_v38 : IVec S_ 1 := andi main_v33 main_v37
  let main_v39 : FVec F S40 .f32 := Host.absf main_arg9
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S384x40 .f32) (main_arg9 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S384x40 .f32) (main_arg9 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S384x40 : Shape := ⟨2, ![384, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1x128 : Shape := ⟨2, ![1, 128]⟩
abbrev S1700000x128 : Shape := ⟨2, ![1700000, 128]⟩
abbrev S128x40 : Shape := ⟨2, ![128, 40]⟩
abbrev S100000x40 : Shape := ⟨2, ![100000, 40]⟩
abbrev S5000x40 : Shape := ⟨2, ![5000, 40]⟩
abbrev S1x40 : Shape := ⟨2, ![1, 40]⟩

abbrev nBuf : Space → Nat
  | .hbm => 90
  | .vmem => 32
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S384x40, .f32⟩
  | .hbm, ⟨9, _⟩ => ⟨S40, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S100000, .f32⟩
  | .hbm, ⟨19, _⟩ => ⟨S_, .i32⟩
  | .hbm, ⟨20, _⟩ => ⟨S1700000, .i32⟩
  | .hbm, ⟨21, _⟩ => ⟨S1700000, .i1⟩
  | .hbm, ⟨22, _⟩ => ⟨S_, .i32⟩
  | .hbm, ⟨23, _⟩ => ⟨S1700000, .i32⟩
  | .hbm, ⟨24, _⟩ => ⟨S1700000, .i32⟩
  | .hbm, ⟨25, _⟩ => ⟨S1700000, .i32⟩
  | .hbm, ⟨26, _⟩ => ⟨S1700000x1, .i32⟩
  | .hbm, ⟨27, _⟩ => ⟨S_, .f32⟩
  | .hbm, ⟨28, _⟩ => ⟨S1700000, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S100000x128, .f32⟩
  | .hbm, ⟨51, _⟩ => ⟨S100000x128, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x128, .f32⟩
  | .hbm, ⟨61, _⟩ => ⟨S1700000x1, .f32⟩
  | .hbm, ⟨62, _⟩ => ⟨S1700000x128, .f32⟩
  | .hbm, ⟨63, _⟩ => ⟨S1700000x128, .f32⟩
  | .hbm, ⟨64, _⟩ => ⟨S_, .f32⟩
  | .hbm, ⟨65, _⟩ => ⟨S100000x128, .f32⟩
  | .hbm, ⟨66, _⟩ => ⟨S1700000x1, .i32⟩
  | .hbm, ⟨67, _⟩ => ⟨S100000x128, .f32⟩
  | .hbm, ⟨68, _⟩ => ⟨S100000x128, .f32⟩
  | .hbm, ⟨69, _⟩ => ⟨S100000x128, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x128, .f32⟩
  | .hbm, ⟨79, _⟩ => ⟨S1700000x1, .f32⟩
  | .hbm, ⟨80, _⟩ => ⟨S1700000x128, .f32⟩
  | .hbm, ⟨81, _⟩ => ⟨S1700000x128, .f32⟩
  | .hbm, ⟨82, _⟩ => ⟨S_, .f32⟩
  | .hbm, ⟨83, _⟩ => ⟨S100000x128, .f32⟩
  | .hbm, ⟨84, _⟩ => ⟨S1700000x1, .i32⟩
  | .hbm, ⟨85, _⟩ => ⟨S100000x128, .f32⟩
  | .hbm, ⟨86, _⟩ => ⟨S128x40, .f32⟩
  | .hbm, ⟨87, _⟩ => ⟨S128x40, .f32⟩
  | .hbm, ⟨88, _⟩ => ⟨S128x40, .f32⟩
  | .hbm, ⟨89, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128, .f32⟩
  | .local _ .vmem, ⟨14, _⟩ => ⟨S128x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S128, .f32⟩
  | .local _ .vmem, ⟨26, _⟩ => ⟨S128x40, .f32⟩
  | .local _ .vmem, ⟨27, _⟩ => ⟨S128x40, .f32⟩
  | .local _ .vmem, ⟨28, _⟩ => ⟨S128x40, .f32⟩
  | .local _ .vmem, ⟨29, _⟩ => ⟨S40, .f32⟩
  | .local _ .vmem, ⟨30, _⟩ => ⟨S5000x40, .f32⟩
  | .local _ .vmem, ⟨31, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_2 : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_6 : Ref sig .tc := ⟨.hbm, 52, rfl⟩
abbrev main_v34 : Ref sig .tc := ⟨.hbm, 53, rfl⟩
abbrev main_v35 : Ref sig .tc := ⟨.hbm, 54, rfl⟩
abbrev main_c_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47_0 : Ref sig .tc := ⟨.hbm, 68, rfl⟩
abbrev main_v47_1 : Ref sig .tc := ⟨.hbm, 69, rfl⟩
abbrev main_c_9 : Ref sig .tc := ⟨.hbm, 70, rfl⟩
abbrev main_v48 : Ref sig .tc := ⟨.hbm, 71, rfl⟩
abbrev main_v49 : Ref sig .tc := ⟨.hbm, 72, rfl⟩
abbrev main_c_10 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_11 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc2_stg4_0 : Ref sig .tc := ⟨.vmem, 17, rfl⟩
abbrev cc2_stg4_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg5_0 : Ref sig .tc := ⟨.vmem, 27, rfl⟩
abbrev cc3_stg6_0 : Ref sig .tc := ⟨.vmem, 28, rfl⟩
abbrev cc3_stg7_0 : Ref sig .tc := ⟨.vmem, 29, rfl⟩
abbrev cc3_stg8_0 : Ref sig .tc := ⟨.vmem, 30, rfl⟩
abbrev cc3_stg8_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc2_sem4_0 : DmaSem sig := 17
abbrev cc2_sem4_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem5_0 : DmaSem sig := 27
abbrev cc3_sem6_0 : DmaSem sig := 28
abbrev cc3_sem7_0 : DmaSem sig := 29
abbrev cc3_sem8_0 : DmaSem sig := 30
abbrev cc3_sem8_1 : DmaSem sig := 31

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x40 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x40 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x40 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S40 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S5000x40 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  shapeCasts_S5000x128_S5000x128 : S5000x128.ShapeCasts S5000x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  slices_S384x40_S128x40_0_0 : S384x40.Slices ![0, 0] S128x40
  slices_S384x40_S128x40_128_0 : S384x40.Slices ![128, 0] S128x40
  slices_S384x40_S128x40_256_0 : S384x40.Slices ![256, 0] S128x40
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S40_S40_0 : ∀ a, (![0] : Fin 1 → Nat) a + S40.size a ≤ S40.size a
  h_S40 : 0 < S40.numel
  shapeCasts_S40_S1x40 : S40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128.size a ≤ S128.size a
  hwx2_1 : ∀ i : grid2.Coords, EltTy.bits .f32 = 32 ∨ (Rect.block (s := S128) S128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .f32 = 32 ∨ (Rect.block (s := S100000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x40.size a ≤ S128x40.size a
  hwx3_4 : ∀ i : grid3.Coords, EltTy.bits .f32 = 32 ∨ (Rect.block (s := S128x40) S128x40.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x40.size a ≤ S128x40.size a
  hwx3_5 : ∀ i : grid3.Coords, EltTy.bits .f32 = 32 ∨ (Rect.block (s := S128x40) S128x40.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x40.size a ≤ S128x40.size a
  hwx3_6 : ∀ i : grid3.Coords, EltTy.bits .f32 = 32 ∨ (Rect.block (s := S128x40) S128x40.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S40.size a ≤ S40.size a
  hwx3_7 : ∀ i : grid3.Coords, EltTy.bits .f32 = 32 ∨ (Rect.block (s := S40) S40.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S5000x40.size a ≤ S100000x40.size a
  hwx3_8 : ∀ i : grid3.Coords, EltTy.bits .f32 = 32 ∨ (Rect.block (s := S100000x40) S5000x40.size (cc3_transform_8 i) (hinb3_8 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v32) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v33) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v47_0) S5000x128.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v47_1) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v32) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v47_0) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v60) S5000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg7) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v61) S128x40.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v62) S128x40.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v63) S128x40.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg9) S40.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v64) S5000x40.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S384x40 : Shape := ⟨2, ![384, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x128 : Shape := ⟨2, ![1, 128]⟩
abbrev S1700000x128 : Shape := ⟨2, ![1700000, 128]⟩
abbrev S100000x384 : Shape := ⟨2, ![100000, 384]⟩
abbrev S100000x40 : Shape := ⟨2, ![100000, 40]⟩
abbrev S1x40 : Shape := ⟨2, ![1, 40]⟩

abbrev nBuf : Space → Nat
  | .hbm => 127
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S384x40, .f32⟩
  | .hbm, ⟨9, _⟩ => ⟨S40, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S100000, .f32⟩
  | .hbm, ⟨19, _⟩ => ⟨S_, .i32⟩
  | .hbm, ⟨20, _⟩ => ⟨S1700000, .i32⟩
  | .hbm, ⟨21, _⟩ => ⟨S1700000, .i1⟩
  | .hbm, ⟨22, _⟩ => ⟨S_, .i32⟩
  | .hbm, ⟨23, _⟩ => ⟨S1700000, .i32⟩
  | .hbm, ⟨24, _⟩ => ⟨S1700000, .i32⟩
  | .hbm, ⟨25, _⟩ => ⟨S1700000, .i32⟩
  | .hbm, ⟨26, _⟩ => ⟨S1700000x1, .i32⟩
  | .hbm, ⟨27, _⟩ => ⟨S_, .f32⟩
  | .hbm, ⟨28, _⟩ => ⟨S1700000, .f32⟩
  | .hbm, ⟨29, _⟩ => ⟨S100000, .f32⟩
  | .hbm, ⟨30, _⟩ => ⟨S100000, .f32⟩
  | .hbm, ⟨31, _⟩ => ⟨S100000x128, .f32⟩
  | .hbm, ⟨32, _⟩ => ⟨S1x128, .f32⟩
  | .hbm, ⟨33, _⟩ => ⟨S100000x128, .f32⟩
  | .hbm, ⟨34, _⟩ => ⟨S100000x128, .f32⟩
  | .hbm, ⟨35, _⟩ => ⟨S_, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000, .f32⟩
  | .hbm, ⟨57, _⟩ => ⟨S1700000, .f32⟩
  | .hbm, ⟨58, _⟩ => ⟨S_, .i32⟩
  | .hbm, ⟨59, _⟩ => ⟨S1700000, .i32⟩
  | .hbm, ⟨60, _⟩ => ⟨S1700000, .i1⟩
  | .hbm, ⟨61, _⟩ => ⟨S_, .i32⟩
  | .hbm, ⟨62, _⟩ => ⟨S1700000, .i32⟩
  | .hbm, ⟨63, _⟩ => ⟨S1700000, .i32⟩
  | .hbm, ⟨64, _⟩ => ⟨S1700000, .i32⟩
  | .hbm, ⟨65, _⟩ => ⟨S1700000x1, .i32⟩
  | .hbm, ⟨66, _⟩ => ⟨S1700000x128, .f32⟩
  | .hbm, ⟨67, _⟩ => ⟨S1700000x1, .f32⟩
  | .hbm, ⟨68, _⟩ => ⟨S1700000x128, .f32⟩
  | .hbm, ⟨69, _⟩ => ⟨S1700000x128, .f32⟩
  | .hbm, ⟨70, _⟩ => ⟨S_, .f32⟩
  | .hbm, ⟨71, _⟩ => ⟨S100000x128, .f32⟩
  | .hbm, ⟨72, _⟩ => ⟨S1700000x1, .i32⟩
  | .hbm, ⟨73, _⟩ => ⟨S100000x128, .f32⟩
  | .hbm, ⟨74, _⟩ => ⟨S1x128, .f32⟩
  | .hbm, ⟨75, _⟩ => ⟨S100000x128, .f32⟩
  | .hbm, ⟨76, _⟩ => ⟨S100000x128, .f32⟩
  | .hbm, ⟨77, _⟩ => ⟨S_, .f32⟩
  | .hbm, ⟨78, _⟩ => ⟨S100000x128, .f32⟩
  | .hbm, ⟨79, _⟩ => ⟨S100000x128, .f32⟩
  | .hbm, ⟨80, _⟩ => ⟨S100000x128, .f32⟩
  | .hbm, ⟨81, _⟩ => ⟨S_, .i32⟩
  | .hbm, ⟨82, _⟩ => ⟨S1700000, .i32⟩
  | .hbm, ⟨83, _⟩ => ⟨S1700000, .i1⟩
  | .hbm, ⟨84, _⟩ => ⟨S_, .i32⟩
  | .hbm, ⟨85, _⟩ => ⟨S1700000, .i32⟩
  | .hbm, ⟨86, _⟩ => ⟨S1700000, .i32⟩
  | .hbm, ⟨87, _⟩ => ⟨S1700000, .i32⟩
  | .hbm, ⟨88, _⟩ => ⟨S1700000x1, .i32⟩
  | .hbm, ⟨89, _⟩ => ⟨S1700000, .f32⟩
  | .hbm, ⟨90, _⟩ => ⟨S_, .i32⟩
  | .hbm, ⟨91, _⟩ => ⟨S1700000, .i32⟩
  | .hbm, ⟨92, _⟩ => ⟨S1700000, .i1⟩
  | .hbm, ⟨93, _⟩ => ⟨S_, .i32⟩
  | .hbm, ⟨94, _⟩ => ⟨S1700000, .i32⟩
  | .hbm, ⟨95, _⟩ => ⟨S1700000, .i32⟩
  | .hbm, ⟨96, _⟩ => ⟨S1700000, .i32⟩
  | .hbm, ⟨97, _⟩ => ⟨S1700000x1, .i32⟩
  | .hbm, ⟨98, _⟩ => ⟨S1700000, .f32⟩
  | .hbm, ⟨99, _⟩ => ⟨S1700000, .f32⟩
  | .hbm, ⟨100, _⟩ => ⟨S_, .i32⟩
  | .hbm, ⟨101, _⟩ => ⟨S1700000, .i32⟩
  | .hbm, ⟨102, _⟩ => ⟨S1700000, .i1⟩
  | .hbm, ⟨103, _⟩ => ⟨S_, .i32⟩
  | .hbm, ⟨104, _⟩ => ⟨S1700000, .i32⟩
  | .hbm, ⟨105, _⟩ => ⟨S1700000, .i32⟩
  | .hbm, ⟨106, _⟩ => ⟨S1700000, .i32⟩
  | .hbm, ⟨107, _⟩ => ⟨S1700000x1, .i32⟩
  | .hbm, ⟨108, _⟩ => ⟨S1700000x128, .f32⟩
  | .hbm, ⟨109, _⟩ => ⟨S1700000x1, .f32⟩
  | .hbm, ⟨110, _⟩ => ⟨S1700000x128, .f32⟩
  | .hbm, ⟨111, _⟩ => ⟨S1700000x128, .f32⟩
  | .hbm, ⟨112, _⟩ => ⟨S_, .f32⟩
  | .hbm, ⟨113, _⟩ => ⟨S100000x128, .f32⟩
  | .hbm, ⟨114, _⟩ => ⟨S1700000x1, .i32⟩
  | .hbm, ⟨115, _⟩ => ⟨S100000x128, .f32⟩
  | .hbm, ⟨116, _⟩ => ⟨S1x128, .f32⟩
  | .hbm, ⟨117, _⟩ => ⟨S100000x128, .f32⟩
  | .hbm, ⟨118, _⟩ => ⟨S100000x128, .f32⟩
  | .hbm, ⟨119, _⟩ => ⟨S_, .f32⟩
  | .hbm, ⟨120, _⟩ => ⟨S100000x128, .f32⟩
  | .hbm, ⟨121, _⟩ => ⟨S100000x128, .f32⟩
  | .hbm, ⟨122, _⟩ => ⟨S100000x384, .f32⟩
  | .hbm, ⟨123, _⟩ => ⟨S100000x40, .f32⟩
  | .hbm, ⟨124, _⟩ => ⟨S1x40, .f32⟩
  | .hbm, ⟨125, _⟩ => ⟨S100000x40, .f32⟩
  | .hbm, ⟨126, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_call0_cst : Ref sig .tc := ⟨.hbm, 35, rfl⟩
abbrev main_call0_v0 : Ref sig .tc := ⟨.hbm, 36, rfl⟩
abbrev main_v21 : Ref sig .tc := ⟨.hbm, 37, rfl⟩
abbrev main_v22 : Ref sig .tc := ⟨.hbm, 38, rfl⟩
abbrev main_c_2 : Ref sig .tc := ⟨.hbm, 39, rfl⟩
abbrev main_v23 : Ref sig .tc := ⟨.hbm, 40, rfl⟩
abbrev main_v24 : Ref sig .tc := ⟨.hbm, 41, rfl⟩
abbrev main_c_3 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_6 : Ref sig .tc := ⟨.hbm, 58, rfl⟩
abbrev main_v38 : Ref sig .tc := ⟨.hbm, 59, rfl⟩
abbrev main_v39 : Ref sig .tc := ⟨.hbm, 60, rfl⟩
abbrev main_c_7 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_8 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_call1_cst : Ref sig .tc := ⟨.hbm, 77, rfl⟩
abbrev main_call1_v0 : Ref sig .tc := ⟨.hbm, 78, rfl⟩
abbrev main_v54 : Ref sig .tc := ⟨.hbm, 79, rfl⟩
abbrev main_v55 : Ref sig .tc := ⟨.hbm, 80, rfl⟩
abbrev main_c_9 : Ref sig .tc := ⟨.hbm, 81, rfl⟩
abbrev main_v56 : Ref sig .tc := ⟨.hbm, 82, rfl⟩
abbrev main_v57 : Ref sig .tc := ⟨.hbm, 83, rfl⟩
abbrev main_c_10 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_c_11 : Ref sig .tc := ⟨.hbm, 90, rfl⟩
abbrev main_v63 : Ref sig .tc := ⟨.hbm, 91, rfl⟩
abbrev main_v64 : Ref sig .tc := ⟨.hbm, 92, rfl⟩
abbrev main_c_12 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_13 : Ref sig .tc := ⟨.hbm, 100, rfl⟩
abbrev main_v71 : Ref sig .tc := ⟨.hbm, 101, rfl⟩
abbrev main_v72 : Ref sig .tc := ⟨.hbm, 102, rfl⟩
abbrev main_c_14 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_15 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_call2_cst : Ref sig .tc := ⟨.hbm, 119, rfl⟩
abbrev main_call2_v0 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S1700000x1_S1700000x128_0_1 : S1700000x1.BroadcastsInDim S1700000x128 (![0, 1] : Fin 2 → Fin S1700000x128.rank)
  concatenates_S100000x128_S100000x128_S100000x128_S100000x384_d1 : Shape.Concatenates [S100000x128, S100000x128, S100000x128] S100000x384 1
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1700000x1_S1700000_n_0_0_1_wf : ScatterDims.WF S100000 S1700000x1 S1700000 [] [0] [0] 1
  dot_S100000x128_S128x128_S100000x128_1_0_0_1_n_n_wf : DotDims.WF S100000x128 S128x128 S100000x128 [1] [0] [0] [1] [] []
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x384_S384x40_S100000x40_1_0_0_1_n_n_wf : DotDims.WF S100000x384 S384x40 S100000x40 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x384_S384x40_S100000x40_1_0_0_1_n_n : DotDims S100000x384 S384x40 S100000x40 where
  lhsContracting := [1]
  rhsContracting := [0]
  lhsNonContracting := [0]
  rhsNonContracting := [1]
  lhsBatch := []
  rhsBatch := []
  wf := dot_S100000x384_S384x40_S100000x40_1_0_0_1_n_n_wf

class Facts : Prop extends Facts₀ where

variable [Facts]
-- ==== Proof.LibColumnMatmul.lean ====
/-
  Two reads at an index given by coordinates.

  * A column [a, 1] broadcast along its unit axis to [a, b]: entry (p, c) of the result is entry (p, 0) of the column.
  * A matrix product into a zero accumulator whose dimension numbers contract ONE axis of extent n: entry j of the
    result is Σ_{k < n} lhs(L k) · rhs(R k), where L k and R k are the operand indices the dimension numbers assign to
    output index j and contraction coordinate k (the caller names them and shows that they are).
-/
import Idealize.ShloMosaic.Lib.ValueLayout
import Idealize.ShloMosaic.Lib.ValueIdx
import Idealize.ShloMosaic.PureOps.Ideal.Laws

noncomputable section

namespace Cert.LibColumnMatmul

open Idealize.ShloMosaic Idealize.ShloMosaic.ValueIdx

/-- A `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A product into the zero accumulator, one contracted axis of extent `n`: the sum over that axis of the operands'
    entries at the indices `L k`, `R k` the dimension numbers give. -/
theorem matmul_zero_single {sl sr so : Shape} {φ₁ φ₂ : FTy} (D : DotDims sl sr so) (prec : Option ContractPrecision) (n : ℕ)
    (hr : D.contr.rank = 1) (hs : D.contr.size ⟨0, by omega⟩ = n)
    (lhs : FVec Ideal sl φ₁) (rhs : FVec Ideal sr φ₂) (j : so.Idx) (L : Fin n → sl.Idx) (R : Fin n → sr.Idx)
    (hL : ∀ k : Fin n, D.lhsIdx j ((contrEquiv1 D n hr hs).symm k) = L k)
    (hR : ∀ k : Fin n, D.rhsIdx j ((contrEquiv1 D n hr hs).symm k) = R k) :
    FloatOps.matmul D prec lhs rhs (constant so .f32 0x00000000#32) j = ∑ k : Fin n, lhs (L k) * rhs (R k) := by
  rw [Ideal.matmul_constant_zero_apply, ← Equiv.sum_comp (contrEquiv1 D n hr hs).symm]
  exact Finset.sum_congr rfl fun k _ => by rw [hL k, hR k]

end Cert.LibColumnMatmul

end
-- ==== Proof.Body.lean ====
/-
  Each kernel body's stored value read at an entry (p, q) of its 5000-row block, on the extended reals.

  A product of a [5000, 128] block with a [128, c] matrix into a zero accumulator has, at (p, q), the sum over
  k < 128 of lhs(p, k) * rhs(k, q): the dimension numbers contract the left operand's columns against the right
  operand's rows.  A change of float format is the identity, so the operands are the loaded blocks themselves.
  A bias [c] cast to [1, c] and broadcast to [5000, c] reads b(q) at (p, q).
-/
import proofs.«108568_j68143951118647_1_alg».proof.Proof.Gen.KernelIdeal.Skeleton
import proofs.«108568_j68143951118647_1_alg».proof.Proof.LibColumnMatmul
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-! ## The two products' operand indices -/

theorem lhs128_0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs128_1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem rhs128_0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem rhs128_1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

theorem lhs40_0 (i : S5000x40.Idx) (q : dot_S5000x128_S128x40_S5000x40_1_0_0_1_n_n.contr.Idx) : (dot_S5000x128_S128x40_S5000x40_1_0_0_1_n_n.lhsIdx i q 0).val = (i 0).val := by
  unfold DotDims.lhsIdx
  rw [dif_neg (show ¬(0 : Fin S5000x128.rank) ∈ dot_S5000x128_S128x40_S5000x40_1_0_0_1_n_n.lhsBatch by decide), dif_pos (show (0 : Fin S5000x128.rank) ∈ dot_S5000x128_S128x40_S5000x40_1_0_0_1_n_n.lhsNonContracting by decide)]
  rfl
theorem lhs40_1 (i : S5000x40.Idx) (q : dot_S5000x128_S128x40_S5000x40_1_0_0_1_n_n.contr.Idx) : (dot_S5000x128_S128x40_S5000x40_1_0_0_1_n_n.lhsIdx i q 1).val = (q ⟨0, by decide⟩).val :=
  dot_S5000x128_S128x40_S5000x40_1_0_0_1_n_n.lhsIdx_val_of_single rfl i q
theorem rhs40_0 (i : S5000x40.Idx) (q : dot_S5000x128_S128x40_S5000x40_1_0_0_1_n_n.contr.Idx) : (dot_S5000x128_S128x40_S5000x40_1_0_0_1_n_n.rhsIdx i q 0).val = (q ⟨0, by decide⟩).val :=
  dot_S5000x128_S128x40_S5000x40_1_0_0_1_n_n.rhsIdx_val_of_single rfl i q
theorem rhs40_1 (i : S5000x40.Idx) (q : dot_S5000x128_S128x40_S5000x40_1_0_0_1_n_n.contr.Idx) : (dot_S5000x128_S128x40_S5000x40_1_0_0_1_n_n.rhsIdx i q 1).val = (i 1).val := by
  unfold DotDims.rhsIdx
  rw [dif_neg (show ¬(1 : Fin S128x40.rank) ∈ dot_S5000x128_S128x40_S5000x40_1_0_0_1_n_n.rhsBatch by decide), dif_pos (show (1 : Fin S128x40.rank) ∈ dot_S5000x128_S128x40_S5000x40_1_0_0_1_n_n.rhsNonContracting by decide)]
  rfl

/-- A [5000, 128] block times a [128, 128] matrix, from zero, at (p, q). -/
theorem matmul128_at {φ₁ φ₂ : FTy} (l : FVec Ideal S5000x128 φ₁) (r : FVec Ideal S128x128 φ₂) (p : Fin 5000) (q : Fin 128) :
    FloatOps.matmul dot_S5000x128_S128x128_S5000x128_1_0_0_1_n_n none l r (constant S5000x128 .f32 0x00000000#32) (ix2 p q)
      = ∑ k : Fin 128, l (ix2 p k) * r (ix2 k q) :=
  Cert.LibColumnMatmul.matmul_zero_single dot_S5000x128_S128x128_S5000x128_1_0_0_1_n_n none 128 rfl rfl l r (ix2 p q) (fun k => ix2 p k) (fun k => ix2 k q)
    (fun k => funext fun a => Fin.ext (by
      have hk := contrEquiv1_symm_val dot_S5000x128_S128x128_S5000x128_1_0_0_1_n_n 128 rfl rfl k
      match a with
      | ⟨0, _⟩ => exact lhs128_0 _ _
      | ⟨1, _⟩ => exact (lhs128_1 _ _).trans hk))
    (fun k => funext fun a => Fin.ext (by
      have hk := contrEquiv1_symm_val dot_S5000x128_S128x128_S5000x128_1_0_0_1_n_n 128 rfl rfl k
      match a with
      | ⟨0, _⟩ => exact (rhs128_0 _ _).trans hk
      | ⟨1, _⟩ => exact rhs128_1 _ _))

/-- A [5000, 128] block times a [128, 40] matrix, from zero, at (p, j). -/
theorem matmul40_at {φ₁ φ₂ : FTy} (l : FVec Ideal S5000x128 φ₁) (r : FVec Ideal S128x40 φ₂) (p : Fin 5000) (j : Fin 40) :
    FloatOps.matmul dot_S5000x128_S128x40_S5000x40_1_0_0_1_n_n none l r (constant S5000x40 .f32 0x00000000#32) (ix2 p j)
      = ∑ k : Fin 128, l (ix2 p k) * r (ix2 k j) :=
  Cert.LibColumnMatmul.matmul_zero_single dot_S5000x128_S128x40_S5000x40_1_0_0_1_n_n none 128 rfl rfl l r (ix2 p j) (fun k => ix2 p k) (fun k => ix2 k j)
    (fun k => funext fun a => Fin.ext (by
      have hk := contrEquiv1_symm_val dot_S5000x128_S128x40_S5000x40_1_0_0_1_n_n 128 rfl rfl k
      match a with
      | ⟨0, _⟩ => exact lhs40_0 _ _
      | ⟨1, _⟩ => exact (lhs40_1 _ _).trans hk))
    (fun k => funext fun a => Fin.ext (by
      have hk := contrEquiv1_symm_val dot_S5000x128_S128x40_S5000x40_1_0_0_1_n_n 128 rfl rfl k
      match a with
      | ⟨0, _⟩ => exact (rhs40_0 _ _).trans hk
      | ⟨1, _⟩ => exact rhs40_1 _ _))

/-- A bias [128] cast to [1, 128] and broadcast over 5000 rows reads b(q) at (p, q). -/
theorem bias128_at (b : FVec Ideal S128 .f32) (p : Fin 5000) (q : Fin 128) :
    broadcastTo S5000x128 (shapeCast S1x128 b Facts₀.shapeCasts_S128_S1x128) Facts₀.broadcasts_S1x128_S5000x128 (ix2 p q)
      = b (ix1 q) :=
  (broadcastTo_1b_ab_apply _ _ p q).trans (shapeCast_a_1a_apply b _ 0 q)

/-- A bias [40] cast to [1, 40] and broadcast over 5000 rows reads b(j) at (p, j). -/
theorem bias40_at (b : FVec Ideal S40 .f32) (p : Fin 5000) (j : Fin 40) :
    broadcastTo S5000x40 (shapeCast S1x40 b Facts₀.shapeCasts_S40_S1x40) Facts₀.broadcasts_S1x40_S5000x40 (ix2 p j)
      = b (ix1 j) :=
  (broadcastTo_1b_ab_apply _ _ p j).trans (shapeCast_a_1a_apply b _ 0 j)

/-! ## The payloads -/

/-- The first layer's block: max (x * w + b, 0) at (p, q). -/
theorem embed_at (x : Vec Ideal S5000x128 .f32) (w : Vec Ideal S128x128 .f32) (b : Vec Ideal S128 .f32) (p : Fin 5000)
    (q : Fin 128) :
    k0_pay1 (F := Ideal) x w b (ix2 p q) = max ((∑ k : Fin 128, x (ix2 p k) * w (ix2 k q)) + b (ix1 q)) 0 := by
  unfold k0_pay1
  show max (FloatOps.matmul dot_S5000x128_S128x128_S5000x128_1_0_0_1_n_n none _ _ _ (ix2 p q) + broadcastTo S5000x128 _ _ (ix2 p q)) _ = _
  rw [matmul128_at, bias128_at]
  show max _ (Ideal.ofBits .f32 0x00000000#32) = _
  rw [Ideal.ofBits_zero_f32]
  rfl

/-- A layer's linear part: x * w at (p, q). -/
theorem mm_at (x : Vec Ideal S5000x128 .f32) (w : Vec Ideal S128x128 .f32) (p : Fin 5000) (q : Fin 128) :
    k1_pay1 (F := Ideal) x w (ix2 p q) = ∑ k : Fin 128, x (ix2 p k) * w (ix2 k q) := by
  unfold k1_pay1
  refine (matmul128_at _ _ p q).trans ?_
  rw [shapeCast_self]
  rfl

/-- A later layer's output: max (a + b, 0) at (p, q). -/
theorem rep_at (a : Vec Ideal S5000x128 .f32) (b : Vec Ideal S128 .f32) (p : Fin 5000) (q : Fin 128) :
    k2_pay1 (F := Ideal) a b (ix2 p q) = max (a (ix2 p q) + b (ix1 q)) 0 := by
  unfold k2_pay1
  show max (shapeCast S5000x128 a _ (ix2 p q) + broadcastTo S5000x128 _ _ (ix2 p q)) _ = _
  rw [shapeCast_self, bias128_at]
  show max _ (Ideal.ofBits .f32 0x00000000#32) = _
  rw [Ideal.ofBits_zero_f32]

/-- A later layer's output times the next weights, at (p, q). -/
theorem repmm_at (a : Vec Ideal S5000x128 .f32) (b : Vec Ideal S128 .f32) (w : Vec Ideal S128x128 .f32) (p : Fin 5000)
    (q : Fin 128) :
    k2_pay2 (F := Ideal) a b w (ix2 p q) = ∑ k : Fin 128, k2_pay1 (F := Ideal) a b (ix2 p k) * w (ix2 k q) := by
  unfold k2_pay2
  exact matmul128_at _ _ p q

/-- The classifier's block at (p, j): three products, summed to the left, plus the bias. -/
theorem cls_at (a : Vec Ideal S5000x128 .f32) (b : Vec Ideal S128 .f32) (h0 h1 : Vec Ideal S5000x128 .f32)
    (w0 w1 w2 : Vec Ideal S128x40 .f32) (bc : Vec Ideal S40 .f32) (p : Fin 5000) (j : Fin 40) :
    k3_pay1 (F := Ideal) a b h0 h1 w0 w1 w2 bc (ix2 p j)
      = (((∑ k : Fin 128, h0 (ix2 p k) * w0 (ix2 k j)) + ∑ k : Fin 128, h1 (ix2 p k) * w1 (ix2 k j))
          + ∑ k : Fin 128, max (a (ix2 p k) + b (ix1 k)) 0 * w2 (ix2 k j)) + bc (ix1 j) := by
  unfold k3_pay1
  show ((FloatOps.matmul dot_S5000x128_S128x40_S5000x40_1_0_0_1_n_n none _ _ _ (ix2 p j) + FloatOps.matmul dot_S5000x128_S128x40_S5000x40_1_0_0_1_n_n none _ _ _ (ix2 p j))
      + FloatOps.matmul dot_S5000x128_S128x40_S5000x40_1_0_0_1_n_n none _ _ _ (ix2 p j)) + broadcastTo S5000x40 _ _ (ix2 p j) = _
  rw [matmul40_at, matmul40_at, matmul40_at, bias40_at]
  simp only [shapeCast_self]
  refine congrArg₂ (· + ·) (congrArg₂ (· + ·) rfl (Finset.sum_congr rfl fun k _ => ?_)) rfl
  show max (a (ix2 p k) + broadcastTo S5000x128 _ _ (ix2 p k)) (Ideal.ofBits .f32 0x00000000#32) * _ = _
  rw [bias128_at, Ideal.ofBits_zero_f32]
  rfl

end Cert.KernelIdeal.Body

end
-- ==== Proof.Spec.lean ====
/-
  The network as whole-array functions over the extended reals, index by index.

  A node-feature array has 100000 rows and 128 columns.  One layer multiplies it by a 128 x 128 weight matrix
  (entry (r, q) of the product is the sum over k < 128 of x(r, k) * w(k, q)), adds a bias along the columns and takes
  the maximum with zero.  The classifier multiplies the three layers' outputs, joined along the columns into 384
  columns, by a 384 x 40 matrix and adds a bias: entry (r, j) is the sum over k < 384 of the joined row times
  w(k, j).  Splitting that sum at 128 and 256 gives three sums over k < 128 against the row blocks [0, 128),
  [128, 256), [256, 384) of w; only the grouping of a finite sum changes, so the two forms agree on every
  extended real, infinite entries included.
-/
import Idealize.ShloMosaic.PureOps.Ideal
import Idealize.ShloMosaic.Lib.ValueIdx

noncomputable section

namespace Cert.Spec

open Idealize.ShloMosaic Idealize.ShloMosaic.ValueIdx

/-- Node features: 100000 rows, 128 columns. -/
abbrev SX : Shape := ⟨2, ![100000, 128]⟩
/-- A layer's weights. -/
abbrev SW : Shape := ⟨2, ![128, 128]⟩
/-- A layer's bias. -/
abbrev SB : Shape := ⟨1, ![128]⟩
/-- The classifier's weights, all 384 rows. -/
abbrev SC : Shape := ⟨2, ![384, 40]⟩
/-- One 128-row block of the classifier's weights. -/
abbrev SC1 : Shape := ⟨2, ![128, 40]⟩
/-- The classifier's bias. -/
abbrev SD : Shape := ⟨1, ![40]⟩
/-- The logits: 100000 rows, 40 columns. -/
abbrev SO : Shape := ⟨2, ![100000, 40]⟩

/-- Entry (r, q) of x * w. -/
def mmAt (x : FVec Ideal SX .f32) (w : FVec Ideal SW .f32) (r : Fin 100000) (q : Fin 128) : EReal :=
  ∑ k : Fin 128, x (ix2 r k) * w (ix2 k q)

/-- x * w. -/
def mm (x : FVec Ideal SX .f32) (w : FVec Ideal SW .f32) : FVec Ideal SX .f32 :=
  fun i => mmAt x w (i 0) (i 1)

theorem mm_ix2 (x : FVec Ideal SX .f32) (w : FVec Ideal SW .f32) (r : Fin 100000) (q : Fin 128) :
    mm x w (ix2 r q) = mmAt x w r q := rfl

/-- max (a(r, q) + b(q), 0): the bias added along the columns, then the maximum with zero. -/
def rep (a : FVec Ideal SX .f32) (b : FVec Ideal SB .f32) : FVec Ideal SX .f32 :=
  fun i => max (a i + b (ix1 (i 1))) 0

theorem rep_ix2 (a : FVec Ideal SX .f32) (b : FVec Ideal SB .f32) (r : Fin 100000) (q : Fin 128) :
    rep a b (ix2 r q) = max (a (ix2 r q) + b (ix1 q)) 0 := rfl

/-- The first layer: max (x * w + b, 0). -/
def embed (x : FVec Ideal SX .f32) (w : FVec Ideal SW .f32) (b : FVec Ideal SB .f32) : FVec Ideal SX .f32 :=
  rep (mm x w) b

theorem embed_ix2 (x : FVec Ideal SX .f32) (w : FVec Ideal SW .f32) (b : FVec Ideal SB .f32) (r : Fin 100000)
    (q : Fin 128) : embed x w b (ix2 r q) = max (mmAt x w r q + b (ix1 q)) 0 := rfl

/-- Entry (r, j) of h * (rows [o, o + 128) of w). -/
def blockAt (h : FVec Ideal SX .f32) (w : FVec Ideal SC .f32) (o : ℕ) (ho : o + 128 ≤ 384) (r : Fin 100000)
    (j : Fin 40) : EReal :=
  ∑ k : Fin 128, h (ix2 r k) * w (ix2 (⟨k.val + o, by have := k.isLt; omega⟩ : Fin 384) j)

/-- Entry (r, j) of the logits, as three sums over k < 128. -/
def clsAt (h0 h1 h2 : FVec Ideal SX .f32) (w : FVec Ideal SC .f32) (bc : FVec Ideal SD .f32) (r : Fin 100000)
    (j : Fin 40) : EReal :=
  ((blockAt h0 w 0 (by omega) r j + blockAt h1 w 128 (by omega) r j) + blockAt h2 w 256 (by omega) r j) + bc (ix1 j)

/-- The logits. -/
def cls (h0 h1 h2 : FVec Ideal SX .f32) (w : FVec Ideal SC .f32) (bc : FVec Ideal SD .f32) : FVec Ideal SO .f32 :=
  fun i => clsAt h0 h1 h2 w bc (i 0) (i 1)

theorem cls_ix2 (h0 h1 h2 : FVec Ideal SX .f32) (w : FVec Ideal SC .f32) (bc : FVec Ideal SD .f32) (r : Fin 100000)
    (j : Fin 40) : cls h0 h1 h2 w bc (ix2 r j) = clsAt h0 h1 h2 w bc r j := rfl

/-- Entry (r, j) of the logits as the row-tiled computation forms it: three products against separate 128-row weight
    blocks, the last layer's bias and maximum with zero applied to its aggregate on the way in. -/
def clsKAt (h0 h1 a : FVec Ideal SX .f32) (b : FVec Ideal SB .f32) (w0 w1 w2 : FVec Ideal SC1 .f32)
    (bc : FVec Ideal SD .f32) (r : Fin 100000) (j : Fin 40) : EReal :=
  (((∑ k : Fin 128, h0 (ix2 r k) * w0 (ix2 k j)) + ∑ k : Fin 128, h1 (ix2 r k) * w1 (ix2 k j))
      + ∑ k : Fin 128, max (a (ix2 r k) + b (ix1 k)) 0 * w2 (ix2 k j)) + bc (ix1 j)

def clsK (h0 h1 a : FVec Ideal SX .f32) (b : FVec Ideal SB .f32) (w0 w1 w2 : FVec Ideal SC1 .f32)
    (bc : FVec Ideal SD .f32) : FVec Ideal SO .f32 :=
  fun i => clsKAt h0 h1 a b w0 w1 w2 bc (i 0) (i 1)

theorem clsK_ix2 (h0 h1 a : FVec Ideal SX .f32) (b : FVec Ideal SB .f32) (w0 w1 w2 : FVec Ideal SC1 .f32)
    (bc : FVec Ideal SD .f32) (r : Fin 100000) (j : Fin 40) :
    clsK h0 h1 a b w0 w1 w2 bc (ix2 r j) = clsKAt h0 h1 a b w0 w1 w2 bc r j := rfl

/-- When the three blocks are rows [0, 128), [128, 256), [256, 384) of one matrix w, the row-tiled form is the logits
    of the three layers against w. -/
theorem clsK_eq (h0 h1 a : FVec Ideal SX .f32) (b : FVec Ideal SB .f32) (w0 w1 w2 : FVec Ideal SC1 .f32)
    (w : FVec Ideal SC .f32) (bc : FVec Ideal SD .f32)
    (e0 : ∀ (k : Fin 128) (j : Fin 40), w0 (ix2 k j) = w (ix2 (⟨k.val + 0, by have := k.isLt; omega⟩ : Fin 384) j))
    (e1 : ∀ (k : Fin 128) (j : Fin 40), w1 (ix2 k j) = w (ix2 (⟨k.val + 128, by have := k.isLt; omega⟩ : Fin 384) j))
    (e2 : ∀ (k : Fin 128) (j : Fin 40), w2 (ix2 k j) = w (ix2 (⟨k.val + 256, by have := k.isLt; omega⟩ : Fin 384) j)) :
    clsK h0 h1 a b w0 w1 w2 bc = cls h0 h1 (rep a b) w bc := by
  funext i
  obtain ⟨r, j, rfl⟩ : ∃ (r : Fin 100000) (j : Fin 40), i = ix2 r j := ⟨i 0, i 1, eq_ix2 i⟩
  rw [clsK_ix2, cls_ix2]
  unfold clsKAt clsAt blockAt
  simp only [e0, e1, e2, rep_ix2]

/-- A sum over k < 384 is the sum of its three thirds, grouped to the left. -/
theorem sum_thirds (f : Fin 384 → EReal) :
    ∑ k : Fin 384, f k
      = ((∑ k : Fin 128, f ⟨k.val + 0, by have := k.isLt; omega⟩)
          + ∑ k : Fin 128, f ⟨k.val + 128, by have := k.isLt; omega⟩)
        + ∑ k : Fin 128, f ⟨k.val + 256, by have := k.isLt; omega⟩ := by
  have h1 := Fin.sum_univ_add (a := 256) (b := 128) f
  have h2 := Fin.sum_univ_add (a := 128) (b := 128) (fun i : Fin 256 => f (Fin.castAdd 128 i))
  rw [h1, h2]
  refine congrArg₂ (· + ·) (congrArg₂ (· + ·) ?_ ?_) ?_
  · exact Finset.sum_congr rfl fun k _ => congrArg f (Fin.ext rfl)
  · exact Finset.sum_congr rfl fun k _ => congrArg f (Fin.ext (by simp [Fin.natAdd, Fin.castAdd]; omega))
  · exact Finset.sum_congr rfl fun k _ => congrArg f (Fin.ext (by simp [Fin.natAdd]; omega))

end Cert.Spec

end
-- ==== Proof.Region0.lean ====
/-
  Region 0: the first layer's array h0 = max (x * w + b, 0) after the run, as one function of the arrays the region
  finds.  Grid point t (of 20) loads rows [5000 t, 5000 t + 5000) of x and the whole of w and b, and writes back the
  same rows of h0; an entry (r, q) depends only on row r of x, so the written blocks are the restrictions of the whole
  array to those rows, and the 20 blocks tile the 100000 rows.
-/
import proofs.«108568_j68143951118647_1_alg».proof.Proof.Gen.KernelIdeal.Frame
import proofs.«108568_j68143951118647_1_alg».proof.Proof.Body
import proofs.«108568_j68143951118647_1_alg».proof.Proof.Spec
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- Row p of point t's block is row 5000 t + p of the array. -/
def row (t : Fin cfg0.N) (p : Fin 5000) : Fin 100000 :=
  ⟨t.val * 5000 + p.val, by have ht : t.val < 20 := t.isLt; have := p.isLt; omega⟩

/-! ## The index maps over the 20 points, and each window's block read at coordinates -/

/-- Window 0 moves down the rows with the point. -/
theorem idx_x : ∀ t : Fin cfg0.N, win0_0.index t (0 : Fin 2) = t.val ∧ win0_0.index t (1 : Fin 2) = 0 :=
  (by decide +kernel : ∀ t : Fin grid0.N, _)
theorem emb_x (t : Fin cfg0.N) (p : Fin 5000) (k : Fin 128) :
    ((cfg0.win 0).blk t).view.emb (ix2 p k) = ix2 (row t p) k := by
  obtain ⟨e0, e1⟩ := idx_x t
  funext a; apply Fin.ext
  match a with
  | ⟨0, _⟩ => show win0_0.index t (0 : Fin 2) * 5000 + 1 * p.val = t.val * 5000 + p.val; omega
  | ⟨1, _⟩ => show win0_0.index t (1 : Fin 2) * 128 + 1 * k.val = k.val; omega
theorem read_x (c : Dev nD) (t : Fin cfg0.N) (p : Fin 5000) (k : Fin 128) :
    iblk0 V c 0 t (ix2 p k) = (V c main_arg0 : FVec Ideal S100000x128 .f32) (ix2 (row t p) k) := by
  show (V c main_arg0 : FVec Ideal S100000x128 .f32) (((cfg0.win 0).blk t).view.emb (ix2 p k)) = _
  rw [emb_x]

/-- Window 1 is its whole array at every point. -/
theorem idx_w : ∀ t : Fin cfg0.N, win0_1.index t (0 : Fin 2) = 0 ∧ win0_1.index t (1 : Fin 2) = 0 :=
  (by decide +kernel : ∀ t : Fin grid0.N, _)
theorem emb_w (t : Fin cfg0.N) (k : Fin 128) (q : Fin 128) :
    ((cfg0.win 1).blk t).view.emb (ix2 k q) = ix2 k q := by
  obtain ⟨e0, e1⟩ := idx_w t
  funext a; apply Fin.ext
  match a with
  | ⟨0, _⟩ => show win0_1.index t (0 : Fin 2) * 128 + 1 * k.val = k.val; omega
  | ⟨1, _⟩ => show win0_1.index t (1 : Fin 2) * 128 + 1 * q.val = q.val; omega
theorem read_w (c : Dev nD) (t : Fin cfg0.N) (k : Fin 128) (q : Fin 128) :
    iblk0 V c 1 t (ix2 k q) = (V c main_arg2 : FVec Ideal S128x128 .f32) (ix2 k q) := by
  show (V c main_arg2 : FVec Ideal S128x128 .f32) (((cfg0.win 1).blk t).view.emb (ix2 k q)) = _
  rw [emb_w]

/-- Window 2 is its whole array at every point. -/
theorem idx_b : ∀ t : Fin cfg0.N, win0_2.index t (0 : Fin 1) = 0 :=
  (by decide +kernel : ∀ t : Fin grid0.N, _)
theorem emb_b (t : Fin cfg0.N) (q : Fin 128) :
    ((cfg0.win 2).blk t).view.emb (ix1 q) = ix1 q := by
  have e0 := idx_b t
  funext a; apply Fin.ext
  match a with
  | ⟨0, _⟩ => show win0_2.index t (0 : Fin 1) * 128 + 1 * q.val = q.val; omega
theorem read_b (c : Dev nD) (t : Fin cfg0.N) (q : Fin 128) :
    iblk0 V c 2 t (ix1 q) = (V c main_arg3 : FVec Ideal S128 .f32) (ix1 q) := by
  show (V c main_arg3 : FVec Ideal S128 .f32) (((cfg0.win 2).blk t).view.emb (ix1 q)) = _
  rw [emb_b]

/-- Window 3 moves down the rows with the point. -/
theorem idx_h : ∀ t : Fin cfg0.N, win0_3.index t (0 : Fin 2) = t.val ∧ win0_3.index t (1 : Fin 2) = 0 :=
  (by decide +kernel : ∀ t : Fin grid0.N, _)
theorem emb_h (t : Fin cfg0.N) (p : Fin 5000) (k : Fin 128) :
    ((cfg0.win 3).blk t).view.emb (ix2 p k) = ix2 (row t p) k := by
  obtain ⟨e0, e1⟩ := idx_h t
  funext a; apply Fin.ext
  match a with
  | ⟨0, _⟩ => show win0_3.index t (0 : Fin 2) * 5000 + 1 * p.val = t.val * 5000 + p.val; omega
  | ⟨1, _⟩ => show win0_3.index t (1 : Fin 2) * 128 + 1 * k.val = k.val; omega

/-! ## Output window 3 -/

/-- What point t writes back is block t of the whole-array function. -/
theorem flushed_h (c : Dev nD) (t : Fin cfg0.N) :
    (dat0 V c).flushed 3 t = ((cfg0.win 3).blk t).view.read (Elt Ideal) (Spec.embed (V c main_arg0) (V c main_arg2) (V c main_arg3)) := by
  show (cfg0.win 3).cut (grid0.coords t) ((dat0 V c).after 3 t) = _
  rw [after0_3]
  unfold out0_3
  rw [View.canon_unit_zero hz2]
  simp only [View.ld_unit_zero (S := S5000x128) hz2, View.ld_unit_zero (S := S128x128) hz2, View.ld_unit_zero (S := S128) hz1]
  refine funext fun (j : S5000x128.Idx) => ?_
  obtain ⟨p, q, rfl⟩ : ∃ (p : Fin 5000) (q : Fin 128), j = ix2 p q := ⟨j 0, j 1, eq_ix2 j⟩
  show k0_pay1 (iblk0 V c 0 t) (iblk0 V c 1 t) (iblk0 V c 2 t) (ix2 p q) = (Spec.embed (V c main_arg0) (V c main_arg2) (V c main_arg3)) (((cfg0.win 3).blk t).view.emb (ix2 p q))
  rw [emb_h]
  rw [Spec.embed_ix2]
  refine (Body.embed_at (iblk0 V c 0 t) (iblk0 V c 1 t) (iblk0 V c 2 t) p q).trans ?_
  unfold Spec.mmAt
  exact congrArg₂ max (congrArg₂ (· + ·) (Finset.sum_congr rfl fun k _ =>
    congrArg₂ (· * ·) (read_x V c t p k) (read_w V c t k q)) (read_b V c t q)) rfl

theorem mem_blk_h (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v32).slice (win0_3.rect t)).set ↔ _
  rw [View.set_slice_whole, Rect.mem_set_unit]
  exact Iff.rfl

/-- Row r lies in the block of point r / 5000. -/
theorem cover_h (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hlt : (i 0).val / 5000 < 20 := by omega
  obtain ⟨e0, e1⟩ := idx_h ⟨(i 0).val / 5000, hlt⟩
  refine ⟨⟨(i 0).val / 5000, hlt⟩, flush0_3 _, ?_⟩
  rw [mem_blk_h]
  intro a
  match a with
  | ⟨0, _⟩ =>
    show win0_3.index ⟨(i 0).val / 5000, hlt⟩ (0 : Fin 2) * 5000 ≤ (i 0).val
      ∧ (i 0).val < win0_3.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win0_3.index ⟨(i 0).val / 5000, hlt⟩ (1 : Fin 2) * 128 ≤ (i 1).val
      ∧ (i 1).val < win0_3.index ⟨(i 0).val / 5000, hlt⟩ (1 : Fin 2) * 128 + 128
    rw [e1]; omega

/-- The array after the region, as one function of the arrays the region found. -/
theorem final_h (c : Dev nD) : (dat0 V c).arrAt 3 cfg0.N = Spec.embed (V c main_arg0) (V c main_arg2) (V c main_arg3) :=
  (dat0 V c).arrAt_eq_of_cover 3 _ (fun t _ => flushed_h V c t) cover_h

end Cert.KernelIdeal.Region0

end
-- ==== Proof.Region1.lean ====
/-
  Region 1: the array lin = h * w after the run, as one function of the arrays the region finds.

  Grid point t (of 20) loads rows [5000 t, 5000 t + 5000) of h and the whole of w, and writes back the same rows of
  the product.  An entry (r, q) of the product depends only on row r of h, so the written blocks are the
  restrictions of the whole product to those rows; the 20 blocks tile the 100000 rows.
-/
import proofs.«108568_j68143951118647_1_alg».proof.Proof.Gen.KernelIdeal.Frame
import proofs.«108568_j68143951118647_1_alg».proof.Proof.Body
import proofs.«108568_j68143951118647_1_alg».proof.Proof.Spec
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the 20 points: the row blocks move with the point, the weights stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row p of point t's block is row 5000 t + p of the array. -/
def row (t : Fin cfg1.N) (p : Fin 5000) : Fin 100000 :=
  ⟨t.val * 5000 + p.val, by have ht : t.val < 20 := t.isLt; have := p.isLt; omega⟩

theorem emb_h (t : Fin cfg1.N) (p : Fin 5000) (k : Fin 128) :
    ((cfg1.win 0).blk t).view.emb (ix2 p k) = ix2 (row t p) k := by
  obtain ⟨e0, e1, -⟩ := idx_facts t
  funext a; apply Fin.ext
  match a with
  | ⟨0, _⟩ => show win1_0.index t (0 : Fin 2) * 5000 + 1 * p.val = t.val * 5000 + p.val; omega
  | ⟨1, _⟩ => show win1_0.index t (1 : Fin 2) * 128 + 1 * k.val = k.val; omega

theorem emb_w (t : Fin cfg1.N) (k : Fin 128) (q : Fin 128) :
    ((cfg1.win 1).blk t).view.emb (ix2 k q) = ix2 k q := by
  obtain ⟨-, -, e2, e3, -⟩ := idx_facts t
  funext a; apply Fin.ext
  match a with
  | ⟨0, _⟩ => show win1_1.index t (0 : Fin 2) * 128 + 1 * k.val = k.val; omega
  | ⟨1, _⟩ => show win1_1.index t (1 : Fin 2) * 128 + 1 * q.val = q.val; omega

theorem emb_out (t : Fin cfg1.N) (p : Fin 5000) (q : Fin 128) :
    ((cfg1.win 2).blk t).view.emb (ix2 p q) = ix2 (row t p) q := by
  obtain ⟨-, -, -, -, e4, e5⟩ := idx_facts t
  funext a; apply Fin.ext
  match a with
  | ⟨0, _⟩ => show win1_2.index t (0 : Fin 2) * 5000 + 1 * p.val = t.val * 5000 + p.val; omega
  | ⟨1, _⟩ => show win1_2.index t (1 : Fin 2) * 128 + 1 * q.val = q.val; omega

/-- Point t's block of h at (p, k) is h at row 5000 t + p. -/
theorem read_h (c : Dev nD) (t : Fin cfg1.N) (p : Fin 5000) (k : Fin 128) :
    iblk1 V c 0 t (ix2 p k) = (V c main_v32 : FVec Ideal S100000x128 .f32) (ix2 (row t p) k) := by
  show (V c main_v32 : FVec Ideal S100000x128 .f32) (((cfg1.win 0).blk t).view.emb (ix2 p k)) = _
  rw [emb_h]

/-- Point t's block of w is w. -/
theorem read_w (c : Dev nD) (t : Fin cfg1.N) (k : Fin 128) (q : Fin 128) :
    iblk1 V c 1 t (ix2 k q) = (V c main_arg4 : FVec Ideal S128x128 .f32) (ix2 k q) := by
  show (V c main_arg4 : FVec Ideal S128x128 .f32) (((cfg1.win 1).blk t).view.emb (ix2 k q)) = _
  rw [emb_w]

/-- What point t writes back is block t of the whole product. -/
theorem flushed_eq (c : Dev nD) (t : Fin cfg1.N) :
    (dat1 V c).flushed 2 t
      = ((cfg1.win 2).blk t).view.read (Elt Ideal) (Spec.mm (V c main_v32) (V c main_arg4)) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x128) hz]
  refine funext fun (j : S5000x128.Idx) => ?_
  obtain ⟨p, q, rfl⟩ : ∃ (p : Fin 5000) (q : Fin 128), j = ix2 p q := ⟨j 0, j 1, eq_ix2 j⟩
  show k1_pay1 (iblk1 V c 0 t) (iblk1 V c 1 t) (ix2 p q)
    = Spec.mm (V c main_v32) (V c main_arg4) (((cfg1.win 2).blk t).view.emb (ix2 p q))
  rw [emb_out, Spec.mm_ix2]
  refine (Body.mm_at (iblk1 V c 0 t) (iblk1 V c 1 t) p q).trans ?_
  unfold Spec.mmAt
  refine Finset.sum_congr rfl fun k _ => ?_
  exact congrArg₂ (· * ·) (read_h V c t p k) (read_w V c t k q)

theorem mem_blk (t : Fin cfg1.N) (i : S100000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v33).slice (win1_2.rect t)).set ↔ _
  rw [View.set_slice_whole, Rect.mem_set_unit]
  exact Iff.rfl

/-- Row r lies in the block of point r / 5000. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hlt : (i 0).val / 5000 < 20 := by omega
  obtain ⟨-, -, -, -, e4, e5⟩ := idx_facts ⟨(i 0).val / 5000, hlt⟩
  refine ⟨⟨(i 0).val / 5000, hlt⟩, flush1_2 _, ?_⟩
  rw [mem_blk]
  intro a
  match a with
  | ⟨0, _⟩ =>
    show win1_2.index ⟨(i 0).val / 5000, hlt⟩ (0 : Fin 2) * 5000 ≤ (i 0).val
      ∧ (i 0).val < win1_2.index ⟨(i 0).val / 5000, hlt⟩ (0 : Fin 2) * 5000 + 5000
    rw [e4]; show (i 0).val / 5000 * 5000 ≤ (i 0).val ∧ (i 0).val < (i 0).val / 5000 * 5000 + 5000; omega
  | ⟨1, _⟩ =>
    show win1_2.index ⟨(i 0).val / 5000, hlt⟩ (1 : Fin 2) * 128 ≤ (i 1).val
      ∧ (i 1).val < win1_2.index ⟨(i 0).val / 5000, hlt⟩ (1 : Fin 2) * 128 + 128
    rw [e5]; omega

/-- The array after the region is the whole product of the arrays it found. -/
theorem final (c : Dev nD) : (dat1 V c).arrAt 2 cfg1.N = Spec.mm (V c main_v32) (V c main_arg4) :=
  (dat1 V c).arrAt_eq_of_cover 2 _ (fun t _ => flushed_eq V c t) cover

end Cert.KernelIdeal.Region1

end
-- ==== Proof.Region2.lean ====
/-
  Region 2: the second layer's array h1 = max (agg + b, 0) and the next linear part h1 * w after the run, each as one
  function of the arrays the region finds.  Grid point t (of 20) loads rows [5000 t, 5000 t + 5000) of agg and the
  whole of b and w, and writes back the same rows of both results; an entry (r, q) of either depends only on row r of
  agg, so the written blocks are the restrictions of the whole arrays to those rows, and the 20 blocks tile the
  100000 rows.
-/
import proofs.«108568_j68143951118647_1_alg».proof.Proof.Gen.KernelIdeal.Frame
import proofs.«108568_j68143951118647_1_alg».proof.Proof.Body
import proofs.«108568_j68143951118647_1_alg».proof.Proof.Spec
import Idealize.ShloMosaic.Lib.Pipeline.Value

set_option maxRecDepth 16384

noncomputable section

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- Row p of point t's block is row 5000 t + p of the array. -/
def row (t : Fin cfg2.N) (p : Fin 5000) : Fin 100000 :=
  ⟨t.val * 5000 + p.val, by have ht : t.val < 20 := t.isLt; have := p.isLt; omega⟩

/-! ## The index maps over the 20 points, and each window's block read at coordinates -/

/-- Window 0 moves down the rows with the point. -/
theorem idx_a : ∀ t : Fin cfg2.N, win2_0.index t (0 : Fin 2) = t.val ∧ win2_0.index t (1 : Fin 2) = 0 :=
  (by decide +kernel : ∀ t : Fin grid2.N, _)
theorem emb_a (t : Fin cfg2.N) (p : Fin 5000) (k : Fin 128) :
    ((cfg2.win 0).blk t).view.emb (ix2 p k) = ix2 (row t p) k := by
  obtain ⟨e0, e1⟩ := idx_a t
  funext a; apply Fin.ext
  match a with
  | ⟨0, _⟩ => show win2_0.index t (0 : Fin 2) * 5000 + 1 * p.val = t.val * 5000 + p.val; omega
  | ⟨1, _⟩ => show win2_0.index t (1 : Fin 2) * 128 + 1 * k.val = k.val; omega
theorem read_a (c : Dev nD) (t : Fin cfg2.N) (p : Fin 5000) (k : Fin 128) :
    iblk2 V c 0 t (ix2 p k) = (V c main_v46 : FVec Ideal S100000x128 .f32) (ix2 (row t p) k) := by
  show (V c main_v46 : FVec Ideal S100000x128 .f32) (((cfg2.win 0).blk t).view.emb (ix2 p k)) = _
  rw [emb_a]

/-- Window 1 is its whole array at every point. -/
theorem idx_b : ∀ t : Fin cfg2.N, win2_1.index t (0 : Fin 1) = 0 :=
  (by decide +kernel : ∀ t : Fin grid2.N, _)
theorem emb_b (t : Fin cfg2.N) (q : Fin 128) :
    ((cfg2.win 1).blk t).view.emb (ix1 q) = ix1 q := by
  have e0 := idx_b t
  funext a; apply Fin.ext
  match a with
  | ⟨0, _⟩ => show win2_1.index t (0 : Fin 1) * 128 + 1 * q.val = q.val; omega
theorem read_b (c : Dev nD) (t : Fin cfg2.N) (q : Fin 128) :
    iblk2 V c 1 t (ix1 q) = (V c main_arg5 : FVec Ideal S128 .f32) (ix1 q) := by
  show (V c main_arg5 : FVec Ideal S128 .f32) (((cfg2.win 1).blk t).view.emb (ix1 q)) = _
  rw [emb_b]

/-- Window 2 is its whole array at every point. -/
theorem idx_w : ∀ t : Fin cfg2.N, win2_2.index t (0 : Fin 2) = 0 ∧ win2_2.index t (1 : Fin 2) = 0 :=
  (by decide +kernel : ∀ t : Fin grid2.N, _)
theorem emb_w (t : Fin cfg2.N) (k : Fin 128) (q : Fin 128) :
    ((cfg2.win 2).blk t).view.emb (ix2 k q) = ix2 k q := by
  obtain ⟨e0, e1⟩ := idx_w t
  funext a; apply Fin.ext
  match a with
  | ⟨0, _⟩ => show win2_2.index t (0 : Fin 2) * 128 + 1 * k.val = k.val; omega
  | ⟨1, _⟩ => show win2_2.index t (1 : Fin 2) * 128 + 1 * q.val = q.val; omega
theorem read_w (c : Dev nD) (t : Fin cfg2.N) (k : Fin 128) (q : Fin 128) :
    iblk2 V c 2 t (ix2 k q) = (V c main_arg6 : FVec Ideal S128x128 .f32) (ix2 k q) := by
  show (V c main_arg6 : FVec Ideal S128x128 .f32) (((cfg2.win 2).blk t).view.emb (ix2 k q)) = _
  rw [emb_w]

/-- Window 3 moves down the rows with the point. -/
theorem idx_h : ∀ t : Fin cfg2.N, win2_3.index t (0 : Fin 2) = t.val ∧ win2_3.index t (1 : Fin 2) = 0 :=
  (by decide +kernel : ∀ t : Fin grid2.N, _)
theorem emb_h (t : Fin cfg2.N) (p : Fin 5000) (k : Fin 128) :
    ((cfg2.win 3).blk t).view.emb (ix2 p k) = ix2 (row t p) k := by
  obtain ⟨e0, e1⟩ := idx_h t
  funext a; apply Fin.ext
  match a with
  | ⟨0, _⟩ => show win2_3.index t (0 : Fin 2) * 5000 + 1 * p.val = t.val * 5000 + p.val; omega
  | ⟨1, _⟩ => show win2_3.index t (1 : Fin 2) * 128 + 1 * k.val = k.val; omega

/-- Window 4 moves down the rows with the point. -/
theorem idx_lin : ∀ t : Fin cfg2.N, win2_4.index t (0 : Fin 2) = t.val ∧ win2_4.index t (1 : Fin 2) = 0 :=
  (by decide +kernel : ∀ t : Fin grid2.N, _)
theorem emb_lin (t : Fin cfg2.N) (p : Fin 5000) (k : Fin 128) :
    ((cfg2.win 4).blk t).view.emb (ix2 p k) = ix2 (row t p) k := by
  obtain ⟨e0, e1⟩ := idx_lin t
  funext a; apply Fin.ext
  match a with
  | ⟨0, _⟩ => show win2_4.index t (0 : Fin 2) * 5000 + 1 * p.val = t.val * 5000 + p.val; omega
  | ⟨1, _⟩ => show win2_4.index t (1 : Fin 2) * 128 + 1 * k.val = k.val; omega

/-! ## Output window 3 -/

/-- What point t writes back is block t of the whole-array function. -/
theorem flushed_h (c : Dev nD) (t : Fin cfg2.N) :
    (dat2 V c).flushed 3 t = ((cfg2.win 3).blk t).view.read (Elt Ideal) (Spec.rep (V c main_v46) (V c main_arg5)) := by
  show (cfg2.win 3).cut (grid2.coords t) ((dat2 V c).after 3 t) = _
  rw [after2_3]
  unfold out2_3
  rw [View.canon_unit_zero hz2]
  simp only [View.ld_unit_zero (S := S5000x128) hz2, View.ld_unit_zero (S := S128) hz1]
  refine funext fun (j : S5000x128.Idx) => ?_
  obtain ⟨p, q, rfl⟩ : ∃ (p : Fin 5000) (q : Fin 128), j = ix2 p q := ⟨j 0, j 1, eq_ix2 j⟩
  show k2_pay1 (iblk2 V c 0 t) (iblk2 V c 1 t) (ix2 p q) = (Spec.rep (V c main_v46) (V c main_arg5)) (((cfg2.win 3).blk t).view.emb (ix2 p q))
  rw [emb_h]
  rw [Spec.rep_ix2]
  refine (Body.rep_at (iblk2 V c 0 t) (iblk2 V c 1 t) p q).trans ?_
  exact congrArg₂ max (congrArg₂ (· + ·) (read_a V c t p q) (read_b V c t q)) rfl

theorem mem_blk_h (t : Fin cfg2.N) (i : S100000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole main_v47_0).slice (win2_3.rect t)).set ↔ _
  rw [View.set_slice_whole, Rect.mem_set_unit]
  exact Iff.rfl

/-- Row r lies in the block of point r / 5000. -/
theorem cover_h (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  have hlt : (i 0).val / 5000 < 20 := by omega
  obtain ⟨e0, e1⟩ := idx_h ⟨(i 0).val / 5000, hlt⟩
  refine ⟨⟨(i 0).val / 5000, hlt⟩, flush2_3 _, ?_⟩
  rw [mem_blk_h]
  intro a
  match a with
  | ⟨0, _⟩ =>
    show win2_3.index ⟨(i 0).val / 5000, hlt⟩ (0 : Fin 2) * 5000 ≤ (i 0).val
      ∧ (i 0).val < win2_3.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win2_3.index ⟨(i 0).val / 5000, hlt⟩ (1 : Fin 2) * 128 ≤ (i 1).val
      ∧ (i 1).val < win2_3.index ⟨(i 0).val / 5000, hlt⟩ (1 : Fin 2) * 128 + 128
    rw [e1]; omega

/-- The array after the region, as one function of the arrays the region found. -/
theorem final_h (c : Dev nD) : (dat2 V c).arrAt 3 cfg2.N = Spec.rep (V c main_v46) (V c main_arg5) :=
  (dat2 V c).arrAt_eq_of_cover 3 _ (fun t _ => flushed_h V c t) cover_h

/-! ## Output window 4 -/

/-- What point t writes back is block t of the whole-array function. -/
theorem flushed_lin (c : Dev nD) (t : Fin cfg2.N) :
    (dat2 V c).flushed 4 t = ((cfg2.win 4).blk t).view.read (Elt Ideal) (Spec.mm (Spec.rep (V c main_v46) (V c main_arg5)) (V c main_arg6)) := by
  show (cfg2.win 4).cut (grid2.coords t) ((dat2 V c).after 4 t) = _
  rw [after2_4]
  unfold out2_4
  rw [View.canon_unit_zero hz2]
  simp only [View.ld_unit_zero (S := S5000x128) hz2, View.ld_unit_zero (S := S128) hz1, View.ld_unit_zero (S := S128x128) hz2]
  refine funext fun (j : S5000x128.Idx) => ?_
  obtain ⟨p, q, rfl⟩ : ∃ (p : Fin 5000) (q : Fin 128), j = ix2 p q := ⟨j 0, j 1, eq_ix2 j⟩
  show k2_pay2 (iblk2 V c 0 t) (iblk2 V c 1 t) (iblk2 V c 2 t) (ix2 p q) = (Spec.mm (Spec.rep (V c main_v46) (V c main_arg5)) (V c main_arg6)) (((cfg2.win 4).blk t).view.emb (ix2 p q))
  rw [emb_lin]
  rw [Spec.mm_ix2]
  refine (Body.repmm_at (iblk2 V c 0 t) (iblk2 V c 1 t) (iblk2 V c 2 t) p q).trans ?_
  unfold Spec.mmAt
  refine Finset.sum_congr rfl fun k _ => congrArg₂ (· * ·) ?_ (read_w V c t k q)
  rw [Spec.rep_ix2]
  refine (Body.rep_at (iblk2 V c 0 t) (iblk2 V c 1 t) p k).trans ?_
  exact congrArg₂ max (congrArg₂ (· + ·) (read_a V c t p k) (read_b V c t k)) rfl

theorem mem_blk_lin (t : Fin cfg2.N) (i : S100000x128.Idx) :
    i ∈ ((cfg2.win 4).blk t).view.set ↔ ∀ a : Fin 2, win2_4.index t a * S5000x128.size a ≤ (i a).val
      ∧ (i a).val < win2_4.index t a * S5000x128.size a + S5000x128.size a := by
  show i ∈ ((View.whole main_v47_1).slice (win2_4.rect t)).set ↔ _
  rw [View.set_slice_whole, Rect.mem_set_unit]
  exact Iff.rfl

/-- Row r lies in the block of point r / 5000. -/
theorem cover_lin (i : S100000x128.Idx) :
    ∃ t : Fin cfg2.N, (cfg2.win 4).flush t = true ∧ i ∈ ((cfg2.win 4).blk t).view.set := by
  have hi0 : (i 0).val < 100000 := (i 0).isLt
  have hi1 : (i 1).val < 128 := (i 1).isLt
  have hlt : (i 0).val / 5000 < 20 := by omega
  obtain ⟨e0, e1⟩ := idx_lin ⟨(i 0).val / 5000, hlt⟩
  refine ⟨⟨(i 0).val / 5000, hlt⟩, flush2_4 _, ?_⟩
  rw [mem_blk_lin]
  intro a
  match a with
  | ⟨0, _⟩ =>
    show win2_4.index ⟨(i 0).val / 5000, hlt⟩ (0 : Fin 2) * 5000 ≤ (i 0).val
      ∧ (i 0).val < win2_4.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win2_4.index ⟨(i 0).val / 5000, hlt⟩ (1 : Fin 2) * 128 ≤ (i 1).val
      ∧ (i 1).val < win2_4.index ⟨(i 0).val / 5000, hlt⟩ (1 : Fin 2) * 128 + 128
    rw [e1]; omega

/-- The array after the region, as one function of the arrays the region found. -/
theorem final_lin (c : Dev nD) : (dat2 V c).arrAt 4 cfg2.N = Spec.mm (Spec.rep (V c main_v46) (V c main_arg5)) (V c main_arg6) :=
  (dat2 V c).arrAt_eq_of_cover 4 _ (fun t _ => flushed_lin V c t) cover_lin

end Cert.KernelIdeal.Region2

end
-- ==== Proof.Region3.lean ====
/-
  Region 3: the logits after the run, as one function of the arrays the region finds.  Grid point t (of 20) loads
  rows [5000 t, 5000 t + 5000) of the first two layers' outputs and of the last aggregate, the whole of the last bias,
  of the three 128-row weight blocks and of the classifier's bias, and writes back the same rows of the logits; an
  entry (r, j) depends only on row r of the three row-blocked arrays, so the written blocks are the restrictions of the
  whole array to those rows, and the 20 blocks tile the 100000 rows.
-/
import proofs.«108568_j68143951118647_1_alg».proof.Proof.Gen.KernelIdeal.Frame
import proofs.«108568_j68143951118647_1_alg».proof.Proof.Body
import proofs.«108568_j68143951118647_1_alg».proof.Proof.Spec
import Idealize.ShloMosaic.Lib.Pipeline.Value

set_option maxRecDepth 16384

noncomputable section

namespace Cert.KernelIdeal.Region3

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- Row p of point t's block is row 5000 t + p of the array. -/
def row (t : Fin cfg3.N) (p : Fin 5000) : Fin 100000 :=
  ⟨t.val * 5000 + p.val, by have ht : t.val < 20 := t.isLt; have := p.isLt; omega⟩

/-! ## The index maps over the 20 points, and each window's block read at coordinates -/

/-- Window 0 moves down the rows with the point. -/
theorem idx_h0 : ∀ t : Fin cfg3.N, win3_0.index t (0 : Fin 2) = t.val ∧ win3_0.index t (1 : Fin 2) = 0 :=
  (by decide +kernel : ∀ t : Fin grid3.N, _)
theorem emb_h0 (t : Fin cfg3.N) (p : Fin 5000) (k : Fin 128) :
    ((cfg3.win 0).blk t).view.emb (ix2 p k) = ix2 (row t p) k := by
  obtain ⟨e0, e1⟩ := idx_h0 t
  funext a; apply Fin.ext
  match a with
  | ⟨0, _⟩ => show win3_0.index t (0 : Fin 2) * 5000 + 1 * p.val = t.val * 5000 + p.val; omega
  | ⟨1, _⟩ => show win3_0.index t (1 : Fin 2) * 128 + 1 * k.val = k.val; omega
theorem read_h0 (c : Dev nD) (t : Fin cfg3.N) (p : Fin 5000) (k : Fin 128) :
    iblk3 V c 0 t (ix2 p k) = (V c main_v32 : FVec Ideal S100000x128 .f32) (ix2 (row t p) k) := by
  show (V c main_v32 : FVec Ideal S100000x128 .f32) (((cfg3.win 0).blk t).view.emb (ix2 p k)) = _
  rw [emb_h0]

/-- Window 1 moves down the rows with the point. -/
theorem idx_h1 : ∀ t : Fin cfg3.N, win3_1.index t (0 : Fin 2) = t.val ∧ win3_1.index t (1 : Fin 2) = 0 :=
  (by decide +kernel : ∀ t : Fin grid3.N, _)
theorem emb_h1 (t : Fin cfg3.N) (p : Fin 5000) (k : Fin 128) :
    ((cfg3.win 1).blk t).view.emb (ix2 p k) = ix2 (row t p) k := by
  obtain ⟨e0, e1⟩ := idx_h1 t
  funext a; apply Fin.ext
  match a with
  | ⟨0, _⟩ => show win3_1.index t (0 : Fin 2) * 5000 + 1 * p.val = t.val * 5000 + p.val; omega
  | ⟨1, _⟩ => show win3_1.index t (1 : Fin 2) * 128 + 1 * k.val = k.val; omega
theorem read_h1 (c : Dev nD) (t : Fin cfg3.N) (p : Fin 5000) (k : Fin 128) :
    iblk3 V c 1 t (ix2 p k) = (V c main_v47_0 : FVec Ideal S100000x128 .f32) (ix2 (row t p) k) := by
  show (V c main_v47_0 : FVec Ideal S100000x128 .f32) (((cfg3.win 1).blk t).view.emb (ix2 p k)) = _
  rw [emb_h1]

/-- Window 2 moves down the rows with the point. -/
theorem idx_a : ∀ t : Fin cfg3.N, win3_2.index t (0 : Fin 2) = t.val ∧ win3_2.index t (1 : Fin 2) = 0 :=
  (by decide +kernel : ∀ t : Fin grid3.N, _)
theorem emb_a (t : Fin cfg3.N) (p : Fin 5000) (k : Fin 128) :
    ((cfg3.win 2).blk t).view.emb (ix2 p k) = ix2 (row t p) k := by
  obtain ⟨e0, e1⟩ := idx_a t
  funext a; apply Fin.ext
  match a with
  | ⟨0, _⟩ => show win3_2.index t (0 : Fin 2) * 5000 + 1 * p.val = t.val * 5000 + p.val; omega
  | ⟨1, _⟩ => show win3_2.index t (1 : Fin 2) * 128 + 1 * k.val = k.val; omega
theorem read_a (c : Dev nD) (t : Fin cfg3.N) (p : Fin 5000) (k : Fin 128) :
    iblk3 V c 2 t (ix2 p k) = (V c main_v60 : FVec Ideal S100000x128 .f32) (ix2 (row t p) k) := by
  show (V c main_v60 : FVec Ideal S100000x128 .f32) (((cfg3.win 2).blk t).view.emb (ix2 p k)) = _
  rw [emb_a]

/-- Window 3 is its whole array at every point. -/
theorem idx_b : ∀ t : Fin cfg3.N, win3_3.index t (0 : Fin 1) = 0 :=
  (by decide +kernel : ∀ t : Fin grid3.N, _)
theorem emb_b (t : Fin cfg3.N) (q : Fin 128) :
    ((cfg3.win 3).blk t).view.emb (ix1 q) = ix1 q := by
  have e0 := idx_b t
  funext a; apply Fin.ext
  match a with
  | ⟨0, _⟩ => show win3_3.index t (0 : Fin 1) * 128 + 1 * q.val = q.val; omega
theorem read_b (c : Dev nD) (t : Fin cfg3.N) (q : Fin 128) :
    iblk3 V c 3 t (ix1 q) = (V c main_arg7 : FVec Ideal S128 .f32) (ix1 q) := by
  show (V c main_arg7 : FVec Ideal S128 .f32) (((cfg3.win 3).blk t).view.emb (ix1 q)) = _
  rw [emb_b]

/-- Window 4 is its whole array at every point. -/
theorem idx_w0 : ∀ t : Fin cfg3.N, win3_4.index t (0 : Fin 2) = 0 ∧ win3_4.index t (1 : Fin 2) = 0 :=
  (by decide +kernel : ∀ t : Fin grid3.N, _)
theorem emb_w0 (t : Fin cfg3.N) (k : Fin 128) (q : Fin 40) :
    ((cfg3.win 4).blk t).view.emb (ix2 k q) = ix2 k q := by
  obtain ⟨e0, e1⟩ := idx_w0 t
  funext a; apply Fin.ext
  match a with
  | ⟨0, _⟩ => show win3_4.index t (0 : Fin 2) * 128 + 1 * k.val = k.val; omega
  | ⟨1, _⟩ => show win3_4.index t (1 : Fin 2) * 40 + 1 * q.val = q.val; omega
theorem read_w0 (c : Dev nD) (t : Fin cfg3.N) (k : Fin 128) (q : Fin 40) :
    iblk3 V c 4 t (ix2 k q) = (V c main_v61 : FVec Ideal S128x40 .f32) (ix2 k q) := by
  show (V c main_v61 : FVec Ideal S128x40 .f32) (((cfg3.win 4).blk t).view.emb (ix2 k q)) = _
  rw [emb_w0]

/-- Window 5 is its whole array at every point. -/
theorem idx_w1 : ∀ t : Fin cfg3.N, win3_5.index t (0 : Fin 2) = 0 ∧ win3_5.index t (1 : Fin 2) = 0 :=
  (by decide +kernel : ∀ t : Fin grid3.N, _)
theorem emb_w1 (t : Fin cfg3.N) (k : Fin 128) (q : Fin 40) :
    ((cfg3.win 5).blk t).view.emb (ix2 k q) = ix2 k q := by
  obtain ⟨e0, e1⟩ := idx_w1 t
  funext a; apply Fin.ext
  match a with
  | ⟨0, _⟩ => show win3_5.index t (0 : Fin 2) * 128 + 1 * k.val = k.val; omega
  | ⟨1, _⟩ => show win3_5.index t (1 : Fin 2) * 40 + 1 * q.val = q.val; omega
theorem read_w1 (c : Dev nD) (t : Fin cfg3.N) (k : Fin 128) (q : Fin 40) :
    iblk3 V c 5 t (ix2 k q) = (V c main_v62 : FVec Ideal S128x40 .f32) (ix2 k q) := by
  show (V c main_v62 : FVec Ideal S128x40 .f32) (((cfg3.win 5).blk t).view.emb (ix2 k q)) = _
  rw [emb_w1]

/-- Window 6 is its whole array at every point. -/
theorem idx_w2 : ∀ t : Fin cfg3.N, win3_6.index t (0 : Fin 2) = 0 ∧ win3_6.index t (1 : Fin 2) = 0 :=
  (by decide +kernel : ∀ t : Fin grid3.N, _)
theorem emb_w2 (t : Fin cfg3.N) (k : Fin 128) (q : Fin 40) :
    ((cfg3.win 6).blk t).view.emb (ix2 k q) = ix2 k q := by
  obtain ⟨e0, e1⟩ := idx_w2 t
  funext a; apply Fin.ext
  match a with
  | ⟨0, _⟩ => show win3_6.index t (0 : Fin 2) * 128 + 1 * k.val = k.val; omega
  | ⟨1, _⟩ => show win3_6.index t (1 : Fin 2) * 40 + 1 * q.val = q.val; omega
theorem read_w2 (c : Dev nD) (t : Fin cfg3.N) (k : Fin 128) (q : Fin 40) :
    iblk3 V c 6 t (ix2 k q) = (V c main_v63 : FVec Ideal S128x40 .f32) (ix2 k q) := by
  show (V c main_v63 : FVec Ideal S128x40 .f32) (((cfg3.win 6).blk t).view.emb (ix2 k q)) = _
  rw [emb_w2]

/-- Window 7 is its whole array at every point. -/
theorem idx_bc : ∀ t : Fin cfg3.N, win3_7.index t (0 : Fin 1) = 0 :=
  (by decide +kernel : ∀ t : Fin grid3.N, _)
theorem emb_bc (t : Fin cfg3.N) (q : Fin 40) :
    ((cfg3.win 7).blk t).view.emb (ix1 q) = ix1 q := by
  have e0 := idx_bc t
  funext a; apply Fin.ext
  match a with
  | ⟨0, _⟩ => show win3_7.index t (0 : Fin 1) * 40 + 1 * q.val = q.val; omega
theorem read_bc (c : Dev nD) (t : Fin cfg3.N) (q : Fin 40) :
    iblk3 V c 7 t (ix1 q) = (V c main_arg9 : FVec Ideal S40 .f32) (ix1 q) := by
  show (V c main_arg9 : FVec Ideal S40 .f32) (((cfg3.win 7).blk t).view.emb (ix1 q)) = _
  rw [emb_bc]

/-- Window 8 moves down the rows with the point. -/
theorem idx_out : ∀ t : Fin cfg3.N, win3_8.index t (0 : Fin 2) = t.val ∧ win3_8.index t (1 : Fin 2) = 0 :=
  (by decide +kernel : ∀ t : Fin grid3.N, _)
theorem emb_out (t : Fin cfg3.N) (p : Fin 5000) (k : Fin 40) :
    ((cfg3.win 8).blk t).view.emb (ix2 p k) = ix2 (row t p) k := by
  obtain ⟨e0, e1⟩ := idx_out t
  funext a; apply Fin.ext
  match a with
  | ⟨0, _⟩ => show win3_8.index t (0 : Fin 2) * 5000 + 1 * p.val = t.val * 5000 + p.val; omega
  | ⟨1, _⟩ => show win3_8.index t (1 : Fin 2) * 40 + 1 * k.val = k.val; omega

/-! ## Output window 8 -/

/-- What point t writes back is block t of the whole-array function. -/
theorem flushed_out (c : Dev nD) (t : Fin cfg3.N) :
    (dat3 V c).flushed 8 t = ((cfg3.win 8).blk t).view.read (Elt Ideal) (Spec.clsK (V c main_v32) (V c main_v47_0) (V c main_v60) (V c main_arg7) (V c main_v61) (V c main_v62) (V c main_v63) (V c main_arg9)) := by
  show (cfg3.win 8).cut (grid3.coords t) ((dat3 V c).after 8 t) = _
  rw [after3_8]
  unfold out3_8
  rw [View.canon_unit_zero hz2]
  simp only [View.ld_unit_zero (S := S5000x128) hz2, View.ld_unit_zero (S := S128) hz1, View.ld_unit_zero (S := S128x40) hz2, View.ld_unit_zero (S := S40) hz1]
  refine funext fun (j : S5000x40.Idx) => ?_
  obtain ⟨p, q, rfl⟩ : ∃ (p : Fin 5000) (q : Fin 40), j = ix2 p q := ⟨j 0, j 1, eq_ix2 j⟩
  show k3_pay1 (iblk3 V c 2 t) (iblk3 V c 3 t) (iblk3 V c 0 t) (iblk3 V c 1 t) (iblk3 V c 4 t) (iblk3 V c 5 t) (iblk3 V c 6 t) (iblk3 V c 7 t) (ix2 p q) = (Spec.clsK (V c main_v32) (V c main_v47_0) (V c main_v60) (V c main_arg7) (V c main_v61) (V c main_v62) (V c main_v63) (V c main_arg9)) (((cfg3.win 8).blk t).view.emb (ix2 p q))
  rw [emb_out]
  rw [Spec.clsK_ix2]
  refine (Body.cls_at (iblk3 V c 2 t) (iblk3 V c 3 t) (iblk3 V c 0 t) (iblk3 V c 1 t) (iblk3 V c 4 t) (iblk3 V c 5 t)
    (iblk3 V c 6 t) (iblk3 V c 7 t) p q).trans ?_
  unfold Spec.clsKAt
  exact congrArg₂ (· + ·) (congrArg₂ (· + ·) (congrArg₂ (· + ·)
      (Finset.sum_congr rfl fun k _ => congrArg₂ (· * ·) (read_h0 V c t p k) (read_w0 V c t k q))
      (Finset.sum_congr rfl fun k _ => congrArg₂ (· * ·) (read_h1 V c t p k) (read_w1 V c t k q)))
      (Finset.sum_congr rfl fun k _ => congrArg₂ (· * ·)
        (congrArg₂ max (congrArg₂ (· + ·) (read_a V c t p k) (read_b V c t k)) rfl) (read_w2 V c t k q)))
    (read_bc V c t q)

theorem mem_blk_out (t : Fin cfg3.N) (i : S100000x40.Idx) :
    i ∈ ((cfg3.win 8).blk t).view.set ↔ ∀ a : Fin 2, win3_8.index t a * S5000x40.size a ≤ (i a).val
      ∧ (i a).val < win3_8.index t a * S5000x40.size a + S5000x40.size a := by
  show i ∈ ((View.whole main_v64).slice (win3_8.rect t)).set ↔ _
  rw [View.set_slice_whole, Rect.mem_set_unit]
  exact Iff.rfl

/-- Row r lies in the block of point r / 5000. -/
theorem cover_out (i : S100000x40.Idx) :
    ∃ t : Fin cfg3.N, (cfg3.win 8).flush t = true ∧ i ∈ ((cfg3.win 8).blk t).view.set := by
  have hi0 : (i 0).val < 100000 := (i 0).isLt
  have hi1 : (i 1).val < 40 := (i 1).isLt
  have hlt : (i 0).val / 5000 < 20 := by omega
  obtain ⟨e0, e1⟩ := idx_out ⟨(i 0).val / 5000, hlt⟩
  refine ⟨⟨(i 0).val / 5000, hlt⟩, flush3_8 _, ?_⟩
  rw [mem_blk_out]
  intro a
  match a with
  | ⟨0, _⟩ =>
    show win3_8.index ⟨(i 0).val / 5000, hlt⟩ (0 : Fin 2) * 5000 ≤ (i 0).val
      ∧ (i 0).val < win3_8.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win3_8.index ⟨(i 0).val / 5000, hlt⟩ (1 : Fin 2) * 40 ≤ (i 1).val
      ∧ (i 1).val < win3_8.index ⟨(i 0).val / 5000, hlt⟩ (1 : Fin 2) * 40 + 40
    rw [e1]; omega

/-- The array after the region, as one function of the arrays the region found. -/
theorem final_out (c : Dev nD) : (dat3 V c).arrAt 8 cfg3.N = Spec.clsK (V c main_v32) (V c main_v47_0) (V c main_v60) (V c main_arg7) (V c main_v61) (V c main_v62) (V c main_v63) (V c main_arg9) :=
  (dat3 V c).arrAt_eq_of_cover 8 _ (fun t _ => flushed_out V c t) cover_out

end Cert.KernelIdeal.Region3

end
-- ==== Proof.Fold.lean ====
/-
  The result buffer read back through @main's seven boundaries.

  After the last region the result holds the logits of what that region found: the first two layers' outputs, the
  last aggregate, the last bias, the three 128-row blocks of the classifier's weights and its bias.  Each of these is
  in turn what an earlier region or stretch of host operations left, and nothing in between writes it: the first
  layer's output is max (x * w + b, 0) of the launch arrays; each aggregate is the gather, scaling and scatter-add of
  the previous linear part along the edge list (carried as one function `agg`, never opened); the weight blocks are
  slices of the launch weights.  Composing these reads gives the result as one function of the launch arrays.
-/
import proofs.«108568_j68143951118647_1_alg».proof.Proof.Gen.KernelIdeal.Frame
import proofs.«108568_j68143951118647_1_alg».proof.Proof.Region0
import proofs.«108568_j68143951118647_1_alg».proof.Proof.Region1
import proofs.«108568_j68143951118647_1_alg».proof.Proof.Region2
import proofs.«108568_j68143951118647_1_alg».proof.Proof.Region3
import proofs.«108568_j68143951118647_1_alg».proof.Proof.Spec
import Idealize.ShloMosaic.Lib.StableHlo.Run
import Idealize.ShloMosaic.Lib.Pipeline.Value

set_option maxRecDepth 16384

noncomputable section

namespace Cert.KernelIdeal.Fold

open Cert.KernelIdeal Cert.KernelIdeal.Gen Idealize.ShloMosaic Idealize.ShloMosaic.TcCoe Idealize.SL.Sem
open Idealize.ShloMosaic.ValueIdx Idealize.ShloMosaic.Tactic
open Idealize.ShloMosaic.Pipeline (Dat)

variable (m : (ℓ : Loc nD τ sig) → Buf (Elt Ideal) ℓ) (ρ : Dev nD → PrngReg) (c : Dev nD)

/-- No operation of a stretch of host operations writes the buffer: the stretch leaves it as it was. -/
local macro "not_written" : tactic => `(tactic|
  (refine StableHlo.after_of_forall_not_mem _ _ (List.forall_iff_forall_mem.mp ?_)
   simp only [hostOps0, hostOps2, hostOps3, List.flatten_cons, List.flatten_nil, List.append_nil, List.cons_append,
     List.nil_append, List.Forall, StableHlo.nullary_writes, StableHlo.unary_writes, StableHlo.binary_writes,
     StableHlo.ternary_writes, StableHlo.quaternary_writes, StableHlo.reshape_writes, StableHlo.binaryIndexed_writes,
     Finset.mem_singleton]
   repeat' apply And.intro
   all_goals exact StableHlo.devRef_ne_of_ne (by decide)))

/-! ## The neighbour aggregation as one function -/

/-- Rows of lin gathered at the source indices (a negative index wrapped by 100000), scaled by the edge weights and
    scatter-added at the destination indices into a zero array. -/
def agg (src dst : (⟨S1700000, .i32⟩ : BufTy).Contents (Elt Ideal)) (nrm : FVec Ideal S1700000 .f32) (lin : FVec Ideal S100000x128 .f32) :
    FVec Ideal S100000x128 .f32 :=
  Host.scatterAdd (F := Ideal) scatter_S100000x128_S1700000x1_S1700000x128_1_0_0_1
    (broadcastInDim S100000x128 ![] Facts₀.bcast_S_S100000x128 (constant (F := Ideal) S_ .f32 0x00000000#32))
    (broadcastInDim S1700000x1 ![0] Facts₀.bcast_S1700000_S1700000x1_0 dst)
    (mulf
      (Host.gather gather_S100000x128_S1700000x1_S1700000x128_1_0_n_n_0_1_1128 lin
        (broadcastInDim S1700000x1 ![0] Facts₀.bcast_S1700000_S1700000x1_0
          (select (cmpi .slt src (broadcastInDim S1700000 ![] Facts₀.bcast_S_S1700000 (constantI S_ 32 0#32)))
            (addi src (broadcastInDim S1700000 ![] Facts₀.bcast_S_S1700000 (constantI S_ 32 100000#32))) src)))
      (broadcastInDim S1700000x128 ![0, 1] Facts₀.bcast_S1700000x1_S1700000x128_0_1
        (broadcastInDim S1700000x1 ![0] Facts₀.bcast_S1700000_S1700000x1_0 nrm)))

/-! ## What the two later stretches of host operations compute, from any contents -/

set_option maxHeartbeats 8000000 in
/-- The stretch between the second and third regions leaves the aggregate of the linear part it finds. -/
theorem agg_after2 (W : Valuation τ sig (Elt Ideal)) :
    StableHlo.after (hostOps2 (F := Ideal)) W (Proc.devRef .tc main_v46)
      = agg (W (Proc.devRef .tc main_v3)) (W (Proc.devRef .tc main_v6)) (W (Proc.devRef .tc main_v31)) (W (Proc.devRef .tc main_v33)) := by
  after_results_simp
  rfl

set_option maxHeartbeats 8000000 in
/-- The stretch between the third and fourth regions leaves the aggregate of the linear part it finds … -/
theorem agg_after3 (W : Valuation τ sig (Elt Ideal)) :
    StableHlo.after (hostOps3 (F := Ideal)) W (Proc.devRef .tc main_v60)
      = agg (W (Proc.devRef .tc main_v3)) (W (Proc.devRef .tc main_v6)) (W (Proc.devRef .tc main_v31)) (W (Proc.devRef .tc main_v47_1)) := by
  after_results_simp
  rfl

set_option maxHeartbeats 8000000 in
/-- … and the three 128-row slices of the classifier's weights. -/
theorem w0_after (W : Valuation τ sig (Elt Ideal)) :
    StableHlo.after (hostOps3 (F := Ideal)) W (Proc.devRef .tc main_v61)
      = extractStridedSlice S128x40 ![0, 0] (W (Proc.devRef .tc main_arg8)) Facts₀.slices_S384x40_S128x40_0_0 := by
  after_results_simp
set_option maxHeartbeats 8000000 in
theorem w1_after (W : Valuation τ sig (Elt Ideal)) :
    StableHlo.after (hostOps3 (F := Ideal)) W (Proc.devRef .tc main_v62)
      = extractStridedSlice S128x40 ![128, 0] (W (Proc.devRef .tc main_arg8)) Facts₀.slices_S384x40_S128x40_128_0 := by
  after_results_simp
set_option maxHeartbeats 8000000 in
theorem w2_after (W : Valuation τ sig (Elt Ideal)) :
    StableHlo.after (hostOps3 (F := Ideal)) W (Proc.devRef .tc main_v63)
      = extractStridedSlice S128x40 ![256, 0] (W (Proc.devRef .tc main_arg8)) Facts₀.slices_S384x40_S128x40_256_0 := by
  after_results_simp

/-! ## Buffers nothing writes between two boundaries -/

theorem W1_main_arg0_from0 : W1 m ρ c (Proc.devRef .tc main_arg0) = m ((c : Thread nD τ).loc main_arg0) :=
  calc W1 m ρ c (Proc.devRef .tc main_arg0)
    _ = W0 m ρ c (Proc.devRef .tc main_arg0) := by
          show StableHlo.after hostOps0 (W0 m ρ c) (Proc.devRef .tc main_arg0) = W0 m ρ c (Proc.devRef .tc main_arg0)
          not_written
    _ = m ((c : Thread nD τ).loc main_arg0) := rfl

theorem W1_main_arg2_from0 : W1 m ρ c (Proc.devRef .tc main_arg2) = m ((c : Thread nD τ).loc main_arg2) :=
  calc W1 m ρ c (Proc.devRef .tc main_arg2)
    _ = W0 m ρ c (Proc.devRef .tc main_arg2) := by
          show StableHlo.after hostOps0 (W0 m ρ c) (Proc.devRef .tc main_arg2) = W0 m ρ c (Proc.devRef .tc main_arg2)
          not_written
    _ = m ((c : Thread nD τ).loc main_arg2) := rfl

theorem W1_main_arg3_from0 : W1 m ρ c (Proc.devRef .tc main_arg3) = m ((c : Thread nD τ).loc main_arg3) :=
  calc W1 m ρ c (Proc.devRef .tc main_arg3)
    _ = W0 m ρ c (Proc.devRef .tc main_arg3) := by
          show StableHlo.after hostOps0 (W0 m ρ c) (Proc.devRef .tc main_arg3) = W0 m ρ c (Proc.devRef .tc main_arg3)
          not_written
    _ = m ((c : Thread nD τ).loc main_arg3) := rfl

theorem W2_main_arg4_from0 : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := by
          show StableHlo.after hostOps0 (W0 m ρ c) (Proc.devRef .tc main_arg4) = W0 m ρ c (Proc.devRef .tc main_arg4)
          not_written
    _ = m ((c : Thread nD τ).loc main_arg4) := rfl

theorem W4_main_arg5_from0 : W4 m ρ c (Proc.devRef .tc main_arg5) = m ((c : Thread nD τ).loc main_arg5) :=
  calc W4 m ρ c (Proc.devRef .tc main_arg5)
    _ = W3 m ρ c (Proc.devRef .tc main_arg5) := by
          show StableHlo.after hostOps2 (W3 m ρ c) (Proc.devRef .tc main_arg5) = W3 m ρ c (Proc.devRef .tc main_arg5)
          not_written
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := by
          show StableHlo.after hostOps0 (W0 m ρ c) (Proc.devRef .tc main_arg5) = W0 m ρ c (Proc.devRef .tc main_arg5)
          not_written
    _ = m ((c : Thread nD τ).loc main_arg5) := rfl

theorem W4_main_arg6_from0 : W4 m ρ c (Proc.devRef .tc main_arg6) = m ((c : Thread nD τ).loc main_arg6) :=
  calc W4 m ρ c (Proc.devRef .tc main_arg6)
    _ = W3 m ρ c (Proc.devRef .tc main_arg6) := by
          show StableHlo.after hostOps2 (W3 m ρ c) (Proc.devRef .tc main_arg6) = W3 m ρ c (Proc.devRef .tc main_arg6)
          not_written
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := by
          show StableHlo.after hostOps0 (W0 m ρ c) (Proc.devRef .tc main_arg6) = W0 m ρ c (Proc.devRef .tc main_arg6)
          not_written
    _ = m ((c : Thread nD τ).loc main_arg6) := rfl

theorem W5_main_arg8_from0 : W5 m ρ c (Proc.devRef .tc main_arg8) = m ((c : Thread nD τ).loc main_arg8) :=
  calc W5 m ρ c (Proc.devRef .tc main_arg8)
    _ = W4 m ρ c (Proc.devRef .tc main_arg8) := W5_of_ne m ρ c main_arg8 (by decide)
    _ = W3 m ρ c (Proc.devRef .tc main_arg8) := by
          show StableHlo.after hostOps2 (W3 m ρ c) (Proc.devRef .tc main_arg8) = W3 m ρ c (Proc.devRef .tc main_arg8)
          not_written
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := by
          show StableHlo.after hostOps0 (W0 m ρ c) (Proc.devRef .tc main_arg8) = W0 m ρ c (Proc.devRef .tc main_arg8)
          not_written
    _ = m ((c : Thread nD τ).loc main_arg8) := rfl

theorem W6_main_arg7_from0 : W6 m ρ c (Proc.devRef .tc main_arg7) = m ((c : Thread nD τ).loc main_arg7) :=
  calc W6 m ρ c (Proc.devRef .tc main_arg7)
    _ = W5 m ρ c (Proc.devRef .tc main_arg7) := by
          show StableHlo.after hostOps3 (W5 m ρ c) (Proc.devRef .tc main_arg7) = W5 m ρ c (Proc.devRef .tc main_arg7)
          not_written
    _ = W4 m ρ c (Proc.devRef .tc main_arg7) := W5_of_ne m ρ c main_arg7 (by decide)
    _ = W3 m ρ c (Proc.devRef .tc main_arg7) := by
          show StableHlo.after hostOps2 (W3 m ρ c) (Proc.devRef .tc main_arg7) = W3 m ρ c (Proc.devRef .tc main_arg7)
          not_written
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := by
          show StableHlo.after hostOps0 (W0 m ρ c) (Proc.devRef .tc main_arg7) = W0 m ρ c (Proc.devRef .tc main_arg7)
          not_written
    _ = m ((c : Thread nD τ).loc main_arg7) := rfl

theorem W6_main_arg9_from0 : W6 m ρ c (Proc.devRef .tc main_arg9) = m ((c : Thread nD τ).loc main_arg9) :=
  calc W6 m ρ c (Proc.devRef .tc main_arg9)
    _ = W5 m ρ c (Proc.devRef .tc main_arg9) := by
          show StableHlo.after hostOps3 (W5 m ρ c) (Proc.devRef .tc main_arg9) = W5 m ρ c (Proc.devRef .tc main_arg9)
          not_written
    _ = W4 m ρ c (Proc.devRef .tc main_arg9) := W5_of_ne m ρ c main_arg9 (by decide)
    _ = W3 m ρ c (Proc.devRef .tc main_arg9) := by
          show StableHlo.after hostOps2 (W3 m ρ c) (Proc.devRef .tc main_arg9) = W3 m ρ c (Proc.devRef .tc main_arg9)
          not_written
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := by
          show StableHlo.after hostOps0 (W0 m ρ c) (Proc.devRef .tc main_arg9) = W0 m ρ c (Proc.devRef .tc main_arg9)
          not_written
    _ = m ((c : Thread nD τ).loc main_arg9) := rfl

theorem W3_main_v3_from1 : W3 m ρ c (Proc.devRef .tc main_v3) = W1 m ρ c (Proc.devRef .tc main_v3) :=
  calc W3 m ρ c (Proc.devRef .tc main_v3)
    _ = W2 m ρ c (Proc.devRef .tc main_v3) := W3_of_ne m ρ c main_v3 (by decide)
    _ = W1 m ρ c (Proc.devRef .tc main_v3) := W2_of_ne m ρ c main_v3 (by decide)

theorem W3_main_v6_from1 : W3 m ρ c (Proc.devRef .tc main_v6) = W1 m ρ c (Proc.devRef .tc main_v6) :=
  calc W3 m ρ c (Proc.devRef .tc main_v6)
    _ = W2 m ρ c (Proc.devRef .tc main_v6) := W3_of_ne m ρ c main_v6 (by decide)
    _ = W1 m ρ c (Proc.devRef .tc main_v6) := W2_of_ne m ρ c main_v6 (by decide)

theorem W3_main_v31_from1 : W3 m ρ c (Proc.devRef .tc main_v31) = W1 m ρ c (Proc.devRef .tc main_v31) :=
  calc W3 m ρ c (Proc.devRef .tc main_v31)
    _ = W2 m ρ c (Proc.devRef .tc main_v31) := W3_of_ne m ρ c main_v31 (by decide)
    _ = W1 m ρ c (Proc.devRef .tc main_v31) := W2_of_ne m ρ c main_v31 (by decide)

theorem W5_main_v3_from3 : W5 m ρ c (Proc.devRef .tc main_v3) = W3 m ρ c (Proc.devRef .tc main_v3) :=
  calc W5 m ρ c (Proc.devRef .tc main_v3)
    _ = W4 m ρ c (Proc.devRef .tc main_v3) := W5_of_ne m ρ c main_v3 (by decide)
    _ = W3 m ρ c (Proc.devRef .tc main_v3) := by
          show StableHlo.after hostOps2 (W3 m ρ c) (Proc.devRef .tc main_v3) = W3 m ρ c (Proc.devRef .tc main_v3)
          not_written

theorem W5_main_v6_from3 : W5 m ρ c (Proc.devRef .tc main_v6) = W3 m ρ c (Proc.devRef .tc main_v6) :=
  calc W5 m ρ c (Proc.devRef .tc main_v6)
    _ = W4 m ρ c (Proc.devRef .tc main_v6) := W5_of_ne m ρ c main_v6 (by decide)
    _ = W3 m ρ c (Proc.devRef .tc main_v6) := by
          show StableHlo.after hostOps2 (W3 m ρ c) (Proc.devRef .tc main_v6) = W3 m ρ c (Proc.devRef .tc main_v6)
          not_written

theorem W5_main_v31_from3 : W5 m ρ c (Proc.devRef .tc main_v31) = W3 m ρ c (Proc.devRef .tc main_v31) :=
  calc W5 m ρ c (Proc.devRef .tc main_v31)
    _ = W4 m ρ c (Proc.devRef .tc main_v31) := W5_of_ne m ρ c main_v31 (by decide)
    _ = W3 m ρ c (Proc.devRef .tc main_v31) := by
          show StableHlo.after hostOps2 (W3 m ρ c) (Proc.devRef .tc main_v31) = W3 m ρ c (Proc.devRef .tc main_v31)
          not_written

theorem W6_main_v47_0_from5 : W6 m ρ c (Proc.devRef .tc main_v47_0) = W5 m ρ c (Proc.devRef .tc main_v47_0) :=
  calc W6 m ρ c (Proc.devRef .tc main_v47_0)
    _ = W5 m ρ c (Proc.devRef .tc main_v47_0) := by
          show StableHlo.after hostOps3 (W5 m ρ c) (Proc.devRef .tc main_v47_0) = W5 m ρ c (Proc.devRef .tc main_v47_0)
          not_written

theorem W6_main_v32_from3 : W6 m ρ c (Proc.devRef .tc main_v32) = W3 m ρ c (Proc.devRef .tc main_v32) :=
  calc W6 m ρ c (Proc.devRef .tc main_v32)
    _ = W5 m ρ c (Proc.devRef .tc main_v32) := by
          show StableHlo.after hostOps3 (W5 m ρ c) (Proc.devRef .tc main_v32) = W5 m ρ c (Proc.devRef .tc main_v32)
          not_written
    _ = W4 m ρ c (Proc.devRef .tc main_v32) := W5_of_ne m ρ c main_v32 (by decide)
    _ = W3 m ρ c (Proc.devRef .tc main_v32) := by
          show StableHlo.after hostOps2 (W3 m ρ c) (Proc.devRef .tc main_v32) = W3 m ρ c (Proc.devRef .tc main_v32)
          not_written

/-- The second region only reads the first layer's output. -/
theorem W3_main_v32_from2 : W3 m ρ c (Proc.devRef .tc main_v32) = W2 m ρ c (Proc.devRef .tc main_v32) :=
  (W3_arr m ρ c 0).trans (((dat1 (V2 m ρ) c).arrAt_in 0 rfl _).trans (A_eq1 (V2 m ρ) c 0))

/-! ## What each region and stretch leaves -/

/-- The first layer's output. -/
theorem h0_eq : W2 m ρ c (Proc.devRef .tc main_v32)
    = Spec.embed (m ((c : Thread nD τ).loc main_arg0)) (m ((c : Thread nD τ).loc main_arg2))
        (m ((c : Thread nD τ).loc main_arg3)) :=
  (W2_arr m ρ c 3).trans ((Region0.final_h (V1 m ρ) c).trans (by
    show Spec.embed (W1 m ρ c (Proc.devRef .tc main_arg0)) (W1 m ρ c (Proc.devRef .tc main_arg2))
      (W1 m ρ c (Proc.devRef .tc main_arg3)) = _
    rw [W1_main_arg0_from0, W1_main_arg2_from0, W1_main_arg3_from0]))

/-- The first linear part. -/
theorem lin1_eq : W3 m ρ c (Proc.devRef .tc main_v33)
    = Spec.mm (W2 m ρ c (Proc.devRef .tc main_v32)) (m ((c : Thread nD τ).loc main_arg4)) :=
  (W3_arr m ρ c 2).trans ((Region1.final (V2 m ρ) c).trans (by
    show Spec.mm (W2 m ρ c (Proc.devRef .tc main_v32)) (W2 m ρ c (Proc.devRef .tc main_arg4)) = _
    rw [W2_main_arg4_from0]))

/-- The first aggregate. -/
theorem agg1_eq : W4 m ρ c (Proc.devRef .tc main_v46)
    = agg (W1 m ρ c (Proc.devRef .tc main_v3)) (W1 m ρ c (Proc.devRef .tc main_v6))
        (W1 m ρ c (Proc.devRef .tc main_v31)) (W3 m ρ c (Proc.devRef .tc main_v33)) :=
  (agg_after2 (W3 m ρ c)).trans (by rw [W3_main_v3_from1, W3_main_v6_from1, W3_main_v31_from1])

/-- The second layer's output. -/
theorem h1_eq : W5 m ρ c (Proc.devRef .tc main_v47_0)
    = Spec.rep (W4 m ρ c (Proc.devRef .tc main_v46)) (m ((c : Thread nD τ).loc main_arg5)) :=
  (W5_arr m ρ c 3).trans ((Region2.final_h (V4 m ρ) c).trans (by
    show Spec.rep (W4 m ρ c (Proc.devRef .tc main_v46)) (W4 m ρ c (Proc.devRef .tc main_arg5)) = _
    rw [W4_main_arg5_from0]))

/-- The second linear part. -/
theorem lin2_eq : W5 m ρ c (Proc.devRef .tc main_v47_1)
    = Spec.mm (Spec.rep (W4 m ρ c (Proc.devRef .tc main_v46)) (m ((c : Thread nD τ).loc main_arg5)))
        (m ((c : Thread nD τ).loc main_arg6)) :=
  (W5_arr m ρ c 4).trans ((Region2.final_lin (V4 m ρ) c).trans (by
    show Spec.mm (Spec.rep (W4 m ρ c (Proc.devRef .tc main_v46)) (W4 m ρ c (Proc.devRef .tc main_arg5)))
      (W4 m ρ c (Proc.devRef .tc main_arg6)) = _
    rw [W4_main_arg5_from0, W4_main_arg6_from0]))

/-- The second aggregate. -/
theorem agg2_eq : W6 m ρ c (Proc.devRef .tc main_v60)
    = agg (W1 m ρ c (Proc.devRef .tc main_v3)) (W1 m ρ c (Proc.devRef .tc main_v6))
        (W1 m ρ c (Proc.devRef .tc main_v31)) (W5 m ρ c (Proc.devRef .tc main_v47_1)) :=
  (agg_after3 (W5 m ρ c)).trans (by
    rw [W5_main_v3_from3, W5_main_v6_from3, W5_main_v31_from3, W3_main_v3_from1, W3_main_v6_from1, W3_main_v31_from1])

/-- The three 128-row blocks of the classifier's weights. -/
theorem w0_eq : W6 m ρ c (Proc.devRef .tc main_v61)
    = extractStridedSlice S128x40 ![0, 0] (m ((c : Thread nD τ).loc main_arg8)) Facts₀.slices_S384x40_S128x40_0_0 :=
  (w0_after (W5 m ρ c)).trans (by rw [W5_main_arg8_from0])
theorem w1_eq : W6 m ρ c (Proc.devRef .tc main_v62)
    = extractStridedSlice S128x40 ![128, 0] (m ((c : Thread nD τ).loc main_arg8)) Facts₀.slices_S384x40_S128x40_128_0 :=
  (w1_after (W5 m ρ c)).trans (by rw [W5_main_arg8_from0])
theorem w2_eq : W6 m ρ c (Proc.devRef .tc main_v63)
    = extractStridedSlice S128x40 ![256, 0] (m ((c : Thread nD τ).loc main_arg8)) Facts₀.slices_S384x40_S128x40_256_0 :=
  (w2_after (W5 m ρ c)).trans (by rw [W5_main_arg8_from0])

/-! ## The result -/

/-- The first layer's output as a function of the launch arrays. -/
abbrev H0 : FVec Ideal S100000x128 .f32 :=
  Spec.embed (m ((c : Thread nD τ).loc main_arg0)) (m ((c : Thread nD τ).loc main_arg2)) (m ((c : Thread nD τ).loc main_arg3))
/-- The aggregation along the launch edge list. -/
abbrev aggE (lin : FVec Ideal S100000x128 .f32) : FVec Ideal S100000x128 .f32 :=
  agg (W1 m ρ c (Proc.devRef .tc main_v3)) (W1 m ρ c (Proc.devRef .tc main_v6)) (W1 m ρ c (Proc.devRef .tc main_v31)) lin
/-- The second layer's output. -/
abbrev H1 : FVec Ideal S100000x128 .f32 :=
  Spec.rep (aggE m ρ c (Spec.mm (H0 m c) (m ((c : Thread nD τ).loc main_arg4)))) (m ((c : Thread nD τ).loc main_arg5))
/-- The last aggregate. -/
abbrev A2 : FVec Ideal S100000x128 .f32 :=
  aggE m ρ c (Spec.mm (H1 m ρ c) (m ((c : Thread nD τ).loc main_arg6)))

/-- The result buffer after the run, as one function of the launch arrays. -/
theorem result : W7 m ρ c (Proc.devRef .tc main_v64)
    = Spec.clsK (H0 m c) (H1 m ρ c) (A2 m ρ c) (m ((c : Thread nD τ).loc main_arg7))
        (extractStridedSlice S128x40 ![0, 0] (m ((c : Thread nD τ).loc main_arg8)) Facts₀.slices_S384x40_S128x40_0_0)
        (extractStridedSlice S128x40 ![128, 0] (m ((c : Thread nD τ).loc main_arg8)) Facts₀.slices_S384x40_S128x40_128_0)
        (extractStridedSlice S128x40 ![256, 0] (m ((c : Thread nD τ).loc main_arg8)) Facts₀.slices_S384x40_S128x40_256_0)
        (m ((c : Thread nD τ).loc main_arg9)) := by
  have hh0 : W6 m ρ c (Proc.devRef .tc main_v32) = H0 m c :=
    (W6_main_v32_from3 m ρ c).trans ((W3_main_v32_from2 m ρ c).trans (h0_eq m ρ c))
  have hl1 : W3 m ρ c (Proc.devRef .tc main_v33) = Spec.mm (H0 m c) (m ((c : Thread nD τ).loc main_arg4)) := by
    rw [lin1_eq, h0_eq]
  have ha1 : W4 m ρ c (Proc.devRef .tc main_v46)
      = aggE m ρ c (Spec.mm (H0 m c) (m ((c : Thread nD τ).loc main_arg4))) := by
    rw [agg1_eq, hl1]
  have hh1 : W5 m ρ c (Proc.devRef .tc main_v47_0) = H1 m ρ c := by
    rw [h1_eq, ha1]
  have hl2 : W5 m ρ c (Proc.devRef .tc main_v47_1) = Spec.mm (H1 m ρ c) (m ((c : Thread nD τ).loc main_arg6)) := by
    rw [lin2_eq, ha1]
  have ha2 : W6 m ρ c (Proc.devRef .tc main_v60) = A2 m ρ c := by
    rw [agg2_eq, hl2]
  refine (W7_arr m ρ c 8).trans ((Region3.final_out (V6 m ρ) c).trans ?_)
  show Spec.clsK (W6 m ρ c (Proc.devRef .tc main_v32)) (W6 m ρ c (Proc.devRef .tc main_v47_0))
    (W6 m ρ c (Proc.devRef .tc main_v60)) (W6 m ρ c (Proc.devRef .tc main_arg7)) (W6 m ρ c (Proc.devRef .tc main_v61))
    (W6 m ρ c (Proc.devRef .tc main_v62)) (W6 m ρ c (Proc.devRef .tc main_v63)) (W6 m ρ c (Proc.devRef .tc main_arg9)) = _
  rw [hh0, W6_main_v47_0_from5, hh1, ha2, W6_main_arg7_from0, w0_eq, w1_eq, w2_eq, W6_main_arg9_from0]

end Cert.KernelIdeal.Fold

end
-- ==== Proof.RefValue.lean ====
/-
  The reference's result as the specification's functions of its arguments.

  Each layer of the reference is a whole product x * w (entry (r, q) the sum over k < 128 of x(r, k) * w(k, q)), a
  bias added along the columns and the maximum with zero; between the layers stands the neighbour aggregation, a
  gather of rows, a scaling and a scatter-add, which is carried here as one function of the edge list and of the
  array it aggregates and is never opened.  The classifier joins the three layers' outputs along the columns and
  multiplies by the 384 x 40 weights: the sum over k < 384 splits at 128 and 256 into the three sums against the
  weights' row blocks, each column block of the joined array being one layer's output.
-/
import proofs.«108568_j68143951118647_1_alg».proof.Proof.Gen.ReferenceIdeal.Read
import proofs.«108568_j68143951118647_1_alg».proof.Proof.Spec
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx

/-! ## A layer's pieces -/

/-- The host's product of a [100000, 128] array with a [128, 128] matrix is the whole product. -/
theorem dot_eq (l : FVec Ideal S100000x128 .f32) (r : FVec Ideal S128x128 .f32) :
    Host.dotGeneral dot_S100000x128_S128x128_S100000x128_1_0_0_1_n_n none l r = Spec.mm l r := by
  funext i
  obtain ⟨p, q, rfl⟩ : ∃ (p : Fin 100000) (q : Fin 128), i = ix2 p q := ⟨i 0, i 1, eq_ix2 i⟩
  refine (val_main_v17_apply l r (ix2 p q)).trans ?_
  rw [Spec.mm_ix2]
  unfold Spec.mmAt
  refine Finset.sum_congr rfl fun k _ => ?_
  have e1 : lidx_main_v17 (ix2 p q) k = ix2 p k :=
    funext fun a => Fin.ext (by match a with | ⟨0, _⟩ => rfl | ⟨1, _⟩ => rfl)
  have e2 : ridx_main_v17 (ix2 p q) k = ix2 k q :=
    funext fun a => Fin.ext (by match a with | ⟨0, _⟩ => rfl | ⟨1, _⟩ => rfl)
  rw [e1, e2]

/-- A bias broadcast over the rows, added, and the maximum with the zero array: max (a + b, 0). -/
theorem rep_eq (a : FVec Ideal S100000x128 .f32) (b : FVec Ideal S128 .f32) :
    maximumf (addf a (val_main_v19 (F := Ideal) b)) (val_main_call0_v0 (F := Ideal)) = Spec.rep a b := by
  funext i
  obtain ⟨p, q, rfl⟩ : ∃ (p : Fin 100000) (q : Fin 128), i = ix2 p q := ⟨i 0, i 1, eq_ix2 i⟩
  show max (a (ix2 p q) + val_main_v19 (F := Ideal) b (ix2 p q)) (val_main_call0_v0 (F := Ideal) (ix2 p q)) = _
  rw [val_main_v19_apply, val_main_v18_apply, val_main_call0_v0_apply, val_main_call0_cst_apply, Spec.rep_ix2]
  show max (a (ix2 p q) + b (idx_main_v18 (idx_main_v19 (ix2 p q)))) (Ideal.ofBits .f32 0x00000000#32) = _
  rw [Ideal.ofBits_zero_f32]
  have e : idx_main_v18 (idx_main_v19 (ix2 p q)) = ix1 q :=
    funext fun a => Fin.ext (by match a with | ⟨0, _⟩ => rfl)
  rw [e]

/-! ## The neighbour aggregation, unopened -/

/-- The first aggregation of an array lin over the edge list x1. -/
def agg1 (x1 : (⟨S2x1600000, .i32⟩ : BufTy).Contents (Elt Ideal)) (lin : FVec Ideal S100000x128 .f32) :
    FVec Ideal S100000x128 .f32 :=
  Host.scatterAdd scatter_S100000x128_S1700000x1_S1700000x128_1_0_0_1 (val_main_v48 (F := Ideal)) (val_main_v49 (F := Ideal) x1)
    (mulf (Host.gather gather_S100000x128_S1700000x1_S1700000x128_1_0_n_n_0_1_1128 lin (val_main_v43 (F := Ideal) x1)) (val_main_v46 (F := Ideal) x1))

/-- The second aggregation (the same operations, printed a second time). -/
def agg2 (x1 : (⟨S2x1600000, .i32⟩ : BufTy).Contents (Elt Ideal)) (lin : FVec Ideal S100000x128 .f32) :
    FVec Ideal S100000x128 .f32 :=
  Host.scatterAdd scatter_S100000x128_S1700000x1_S1700000x128_1_0_0_1 (val_main_v81 (F := Ideal)) (val_main_v82 (F := Ideal) x1)
    (mulf (Host.gather gather_S100000x128_S1700000x1_S1700000x128_1_0_n_n_0_1_1128 lin (val_main_v76 (F := Ideal) x1)) (val_main_v79 (F := Ideal) x1))

/-! ## The classifier -/

/-- The host's product of a [100000, 384] array with the [384, 40] weights, at an index. -/
theorem dot384_apply (y : FVec Ideal S100000x384 .f32) (w : FVec Ideal S384x40 .f32) (i : S100000x40.Idx) :
    Host.dotGeneral dot_S100000x384_S384x40_S100000x40_1_0_0_1_n_n none y w i = ∑ k : Fin 384, y (lidx_main_v89 i k) * w (ridx_main_v89 i k) := by
  simp only [Host.dotGeneral]
  rw [Ideal.dotGeneral_apply, ← Equiv.sum_comp (ValueIdx.contrEquiv1 dot_S100000x384_S384x40_S100000x40_1_0_0_1_n_n 384 rfl rfl).symm]
  refine Finset.sum_congr rfl fun k _ => ?_
  have hk := ValueIdx.contrEquiv1_symm_val dot_S100000x384_S384x40_S100000x40_1_0_0_1_n_n 384 rfl rfl k
  have el : dot_S100000x384_S384x40_S100000x40_1_0_0_1_n_n.lhsIdx i ((ValueIdx.contrEquiv1 dot_S100000x384_S384x40_S100000x40_1_0_0_1_n_n 384 rfl rfl).symm k) = lidx_main_v89 i k :=
    funext fun a => Fin.ext (by
      match a with
      | ⟨0, _⟩ => exact lhs_main_v89_0 _ _
      | ⟨1, _⟩ => exact (lhs_main_v89_1 _ _).trans hk)
  have er : dot_S100000x384_S384x40_S100000x40_1_0_0_1_n_n.rhsIdx i ((ValueIdx.contrEquiv1 dot_S100000x384_S384x40_S100000x40_1_0_0_1_n_n 384 rfl rfl).symm k) = ridx_main_v89 i k :=
    funext fun a => Fin.ext (by
      match a with
      | ⟨0, _⟩ => exact (rhs_main_v89_0 _ _).trans hk
      | ⟨1, _⟩ => exact rhs_main_v89_1 _ _)
  rw [el, er]

/-- Column k + o of the joined array, for the block starting at column o, is column k of that block's array. -/
theorem joined_at (h0 h1 h2 : FVec Ideal S100000x128 .f32) (n : ℕ) (hn : n < 3) (h : FVec Ideal S100000x128 .f32)
    (hx : ([⟨S100000x128, h0⟩, ⟨S100000x128, h1⟩, ⟨S100000x128, h2⟩] : List ((s : Shape) × (s.Idx → Ideal .f32)))[n]
      = ⟨S100000x128, h⟩)
    (o : ℕ) (ho : o = 128 * n) (r : Fin 100000) (j : Fin 40) (k : Fin 128) (hk : k.val + o < 384) :
    concatenate S100000x384 1 [⟨S100000x128, h0⟩, ⟨S100000x128, h1⟩, ⟨S100000x128, h2⟩]
        Facts₀.concatenates_S100000x128_S100000x128_S100000x128_S100000x384_d1
        (lidx_main_v89 (ix2 r j) ⟨k.val + o, hk⟩)
      = h (ix2 r k) := by
  refine concatenate_apply_piece (1 : Fin S100000x384.rank)
    ([⟨S100000x128, h0⟩, ⟨S100000x128, h1⟩, ⟨S100000x128, h2⟩] : List ((s : Shape) × (s.Idx → Ideal .f32))) _ _ n hn
    S100000x128 h hx rfl o ?_ (ix2 r k) ?_ ?_
  · subst ho
    match n, hn with
    | 0, _ => rfl
    | 1, _ => rfl
    | 2, _ => rfl
  · intro b hb
    match b with
    | ⟨0, _⟩ => rfl
    | ⟨1, _⟩ => exact absurd rfl hb
  · show o + k.val = k.val + o
    omega

/-- The joined array times the weights plus the bias is the logits of the three layers. -/
theorem cls_eq (h0 h1 h2 : FVec Ideal S100000x128 .f32) (w : FVec Ideal S384x40 .f32) (bc : FVec Ideal S40 .f32) :
    addf (Host.dotGeneral dot_S100000x384_S384x40_S100000x40_1_0_0_1_n_n none
        (concatenate S100000x384 1 [⟨S100000x128, h0⟩, ⟨S100000x128, h1⟩, ⟨S100000x128, h2⟩]
          Facts₀.concatenates_S100000x128_S100000x128_S100000x128_S100000x384_d1) w)
      (val_main_v91 (F := Ideal) bc) = Spec.cls h0 h1 h2 w bc := by
  funext i
  obtain ⟨r, j, rfl⟩ : ∃ (r : Fin 100000) (j : Fin 40), i = ix2 r j := ⟨i 0, i 1, eq_ix2 i⟩
  show Host.dotGeneral dot_S100000x384_S384x40_S100000x40_1_0_0_1_n_n none _ w (ix2 r j) + val_main_v91 (F := Ideal) bc (ix2 r j) = _
  rw [dot384_apply, val_main_v91_apply, val_main_v90_apply, Spec.cls_ix2, Spec.sum_thirds]
  unfold Spec.clsAt Spec.blockAt
  have ew : ∀ (k : Fin 384), ridx_main_v89 (ix2 r j) k = ix2 k j := fun k =>
    funext fun a => Fin.ext (by match a with | ⟨0, _⟩ => rfl | ⟨1, _⟩ => rfl)
  have eb : idx_main_v90 (idx_main_v91 (ix2 r j)) = ix1 j :=
    funext fun a => Fin.ext (by match a with | ⟨0, _⟩ => rfl)
  rw [eb]
  refine congrArg₂ (· + ·) (congrArg₂ (· + ·) (congrArg₂ (· + ·) ?_ ?_) ?_) rfl
  · exact Finset.sum_congr rfl fun k _ => congrArg₂ (· * ·)
      (joined_at h0 h1 h2 0 (by omega) h0 rfl 0 rfl r j k _) (congrArg w (ew _))
  · exact Finset.sum_congr rfl fun k _ => congrArg₂ (· * ·)
      (joined_at h0 h1 h2 1 (by omega) h1 rfl 128 rfl r j k _) (congrArg w (ew _))
  · exact Finset.sum_congr rfl fun k _ => congrArg₂ (· * ·)
      (joined_at h0 h1 h2 2 (by omega) h2 rfl 256 rfl r j k _) (congrArg w (ew _))

/-! ## The result -/

/-- The reference's result stage as the specification's functions of the ten arguments. -/
theorem result_eq (x0 : FVec Ideal S100000x128 .f32) (x1 : (⟨S2x1600000, .i32⟩ : BufTy).Contents (Elt Ideal))
    (x2 : FVec Ideal S128x128 .f32) (x3 : FVec Ideal S128 .f32) (x4 : FVec Ideal S128x128 .f32)
    (x5 : FVec Ideal S128 .f32) (x6 : FVec Ideal S128x128 .f32) (x7 : FVec Ideal S128 .f32)
    (x8 : FVec Ideal S384x40 .f32) (x9 : FVec Ideal S40 .f32) :
    val_main_v92 (F := Ideal) x0 x1 x2 x3 x4 x5 x6 x7 x8 x9
      = Spec.cls (Spec.embed x0 x2 x3)
          (Spec.rep (agg1 x1 (Spec.mm (Spec.embed x0 x2 x3) x4)) x5)
          (Spec.rep (agg2 x1 (Spec.mm (Spec.rep (agg1 x1 (Spec.mm (Spec.embed x0 x2 x3) x4)) x5) x6)) x7)
          x8 x9 := by
  have e21 : val_main_v21 (F := Ideal) x0 x2 x3 = Spec.embed x0 x2 x3 := by
    unfold val_main_v21 val_main_v20 val_main_v17
    rw [dot_eq]
    exact rep_eq _ _
  have e22 : val_main_v22 (F := Ideal) x0 x2 x3 x4 = Spec.mm (Spec.embed x0 x2 x3) x4 := by
    unfold val_main_v22
    rw [dot_eq, e21]
  have e54 : val_main_v54 (F := Ideal) x0 x1 x2 x3 x4 x5
      = Spec.rep (agg1 x1 (Spec.mm (Spec.embed x0 x2 x3) x4)) x5 := by
    unfold val_main_v54 val_main_v53 val_main_v50 val_main_v47 val_main_v44
    rw [e22]
    exact rep_eq _ _
  have e55 : val_main_v55 (F := Ideal) x0 x1 x2 x3 x4 x5 x6
      = Spec.mm (Spec.rep (agg1 x1 (Spec.mm (Spec.embed x0 x2 x3) x4)) x5) x6 := by
    unfold val_main_v55
    rw [dot_eq, e54]
  have e87 : val_main_v87 (F := Ideal) x0 x1 x2 x3 x4 x5 x6 x7
      = Spec.rep (agg2 x1 (Spec.mm (Spec.rep (agg1 x1 (Spec.mm (Spec.embed x0 x2 x3) x4)) x5) x6)) x7 := by
    unfold val_main_v87 val_main_v86 val_main_v83 val_main_v80 val_main_v77
    rw [e55]
    exact rep_eq _ _
  unfold val_main_v92 val_main_v89 val_main_v88
  rw [e21, e54, e87]
  exact cls_eq _ _ _ _ _

end Cert.ReferenceIdeal.RefValue

end
-- ==== Proof.Bridge.lean ====
/-
  The two programs' results are one function of the launch arrays.

  The kernel program's result is the row-tiled classifier of the first layer's output, the second layer's output and
  the last aggregate, against three slices of the classifier's weights; the reference's is the classifier of the
  three layers' outputs against the whole weights.  The slices are rows [0, 128), [128, 256), [256, 384) of the
  weights, so the two classifiers agree (a sum over 384 split into its thirds).  Both programs compute the edge
  list's source and destination indices and the edge weights by the same operations of the edge array, and aggregate
  by the same gather, scaling and scatter-add: the aggregation is the same function on both sides, never opened.
-/
import proofs.«108568_j68143951118647_1_alg».proof.Proof.Fold
import proofs.«108568_j68143951118647_1_alg».proof.Proof.RefValue
import Idealize.ShloMosaic.Lib.StableHlo.Run
import Idealize.ShloMosaic.Lib.Pipeline.Value

set_option maxRecDepth 16384

noncomputable section

namespace Cert.Bridge

open Idealize.ShloMosaic Idealize.ShloMosaic.TcCoe Idealize.SL.Sem Idealize.ShloMosaic.ValueIdx
open Idealize.ShloMosaic.Tactic
open Cert.KernelIdeal Cert.KernelIdeal.Gen

variable (m : (ℓ : Loc nD τ sig) → Buf (Elt Ideal) ℓ) (ρ : Dev nD → PrngReg) (c : Dev nD)

/-! ## The edge list on both sides -/

set_option maxHeartbeats 20000000 in
/-- The source indices the first stretch of host operations computes are the reference's, from any contents. -/
theorem src_after (W : Valuation τ sig (Elt Ideal)) :
    StableHlo.after (hostOps0 (F := Ideal)) W (Proc.devRef .tc main_v3)
      = Cert.ReferenceIdeal.Read.val_main_v3 (F := Ideal) (W (Proc.devRef .tc main_arg1)) := by
  after_results_simp
  rfl

set_option maxHeartbeats 20000000 in
/-- The destination indices likewise. -/
theorem dst_after (W : Valuation τ sig (Elt Ideal)) :
    StableHlo.after (hostOps0 (F := Ideal)) W (Proc.devRef .tc main_v6)
      = Cert.ReferenceIdeal.Read.val_main_v6 (F := Ideal) (W (Proc.devRef .tc main_arg1)) := by
  after_results_simp
  rfl

set_option maxHeartbeats 20000000 in
/-- The edge weights likewise. -/
theorem nrm_after (W : Valuation τ sig (Elt Ideal)) :
    StableHlo.after (hostOps0 (F := Ideal)) W (Proc.devRef .tc main_v31)
      = Cert.ReferenceIdeal.Read.val_main_v37 (F := Ideal) (W (Proc.devRef .tc main_arg1)) := by
  after_results_simp
  rfl

theorem src_eq : W1 m ρ c (Proc.devRef .tc main_v3)
    = Cert.ReferenceIdeal.Read.val_main_v3 (F := Ideal) (m ((c : Thread nD τ).loc main_arg1)) := src_after (W0 m ρ c)
theorem dst_eq : W1 m ρ c (Proc.devRef .tc main_v6)
    = Cert.ReferenceIdeal.Read.val_main_v6 (F := Ideal) (m ((c : Thread nD τ).loc main_arg1)) := dst_after (W0 m ρ c)
theorem nrm_eq : W1 m ρ c (Proc.devRef .tc main_v31)
    = Cert.ReferenceIdeal.Read.val_main_v37 (F := Ideal) (m ((c : Thread nD τ).loc main_arg1)) := nrm_after (W0 m ρ c)

/-- The aggregation along those indices and weights is the reference's first aggregation. -/
theorem agg_eq1 (x1 : (⟨S2x1600000, .i32⟩ : BufTy).Contents (Elt Ideal)) (lin : FVec Ideal S100000x128 .f32) :
    Fold.agg (Cert.ReferenceIdeal.Read.val_main_v3 (F := Ideal) x1) (Cert.ReferenceIdeal.Read.val_main_v6 (F := Ideal) x1)
      (Cert.ReferenceIdeal.Read.val_main_v37 (F := Ideal) x1) lin = Cert.ReferenceIdeal.RefValue.agg1 x1 lin := rfl

/-- … and its second one (the same operations printed again). -/
theorem agg_eq2 (x1 : (⟨S2x1600000, .i32⟩ : BufTy).Contents (Elt Ideal)) (lin : FVec Ideal S100000x128 .f32) :
    Fold.agg (Cert.ReferenceIdeal.Read.val_main_v3 (F := Ideal) x1) (Cert.ReferenceIdeal.Read.val_main_v6 (F := Ideal) x1)
      (Cert.ReferenceIdeal.Read.val_main_v37 (F := Ideal) x1) lin = Cert.ReferenceIdeal.RefValue.agg2 x1 lin := rfl

/-! ## The weights' slices -/

theorem slice_at (w : FVec Ideal S384x40 .f32) (o : ℕ) (ho : o + 128 ≤ 384) (h : S384x40.Slices ![o, 0] S128x40)
    (k : Fin 128) (j : Fin 40) :
    extractStridedSlice S128x40 ![o, 0] w h (ix2 k j) = w (ix2 (⟨k.val + o, by have := k.isLt; omega⟩ : Fin 384) j) :=
  extractStridedSlice_apply _ w h (ix2 k j) (ix2 (⟨k.val + o, by have := k.isLt; omega⟩ : Fin 384) j) fun a => by
    match a with
    | ⟨0, _⟩ => show k.val + o = o + k.val; omega
    | ⟨1, _⟩ => show j.val = 0 + j.val; omega

/-! ## The results -/

/-- The kernel program's result buffer is the reference's result stage of the same launch arrays. -/
theorem result_eq : W7 m ρ c (Proc.devRef .tc main_v64)
    = Cert.ReferenceIdeal.Read.val_main_v92 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) := by
  rw [Fold.result, Cert.ReferenceIdeal.RefValue.result_eq]
  rw [Spec.clsK_eq _ _ _ _ _ _ _ (m ((c : Thread nD τ).loc main_arg8)) _
    (fun k j => slice_at _ 0 (by omega) _ k j) (fun k j => slice_at _ 128 (by omega) _ k j)
    (fun k j => slice_at _ 256 (by omega) _ k j)]
  unfold Fold.A2 Fold.H1 Fold.aggE Fold.H0
  rw [src_eq, dst_eq, nrm_eq, agg_eq1, agg_eq2]

end Cert.Bridge

end
-- ==== Proof.lean ====
/-
  A two-layer graph convolution with a classifier over the three layers' outputs, computed row tile by row tile in
  four kernel regions, against the plain whole-array computation: the two end with equal logits on the extended reals.

  Both programs build the same edge list from the edge array (self loops appended), the same in-degrees, their
  inverse square roots and the edge weights, and aggregate along it by the same gather of rows, scaling and
  scatter-add; that aggregation is one function on both sides and is never opened.  What differs is the dense part.
  The first program computes each layer for 5000 rows at a time (a product with the 128 x 128 weights into a zero
  accumulator, the bias added along the columns, the maximum with zero), where the second multiplies the whole
  100000-row array; an entry (r, q) of a product depends only on row r, so the row tiles are the restrictions of the
  whole product and the twenty tiles cover the array.  A change of float format is the identity on the extended
  reals, so the products taken on narrowed operands are the same sums.  The first program forms the logits as three
  products of the layers' outputs with the row blocks [0, 128), [128, 256), [256, 384) of the classifier's weights,
  summed to the left, where the second joins the outputs along the columns and multiplies by all 384 rows: a sum
  over k < 384 is the sum of its three thirds.  Only the grouping of finite sums changes, which holds for every
  extended real, so the precondition (finite inputs) is never opened.

  The frames of the two kernel programs are the generated ones; the reference's is its generated run with the result
  dropped.  No rewrite separates the kernel from its idealization.
-/
import proofs.«108568_j68143951118647_1_alg».proof.Defs
import proofs.«108568_j68143951118647_1_alg».proof.Proof.Gen.Kernel
import proofs.«108568_j68143951118647_1_alg».proof.Proof.Gen.Kernel.Frame
import proofs.«108568_j68143951118647_1_alg».proof.Proof.Gen.KernelIdeal
import proofs.«108568_j68143951118647_1_alg».proof.Proof.Gen.KernelIdeal.Frame
import proofs.«108568_j68143951118647_1_alg».proof.Proof.Gen.ReferenceIdeal
import proofs.«108568_j68143951118647_1_alg».proof.Proof.Gen.Pre_finite_inputs
import proofs.«108568_j68143951118647_1_alg».proof.Proof.Gen.ReferenceIdeal.Run
import proofs.«108568_j68143951118647_1_alg».proof.Proof.Gen.ReferenceIdeal.Read
import proofs.«108568_j68143951118647_1_alg».proof.Proof.KernelRun
import proofs.«108568_j68143951118647_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run ends with its arguments unchanged. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end, the first with its result buffer at the contents after its last region, the second at its result
    stage; from launch arrays that agree the two are one function of them. -/
theorem algebraic : Cert.algebraic_KernelIdeal_ReferenceIdeal := by
  intro m ρ m' ρ' _ hagree
  refine ⟨fun c => Cert.KernelIdeal.Gen.W7 m ρ c (Proc.devRef .tc Cert.KernelIdeal.main_v64),
    Cert.KernelIdeal.GenP.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9⟩ := hagree c
  rw [Cert.ReferenceIdeal.Read.val_main_v92_eq, e0, e1, e2, e3, e4, e5, e6, e7, e8, e9]
  exact (Cert.Bridge.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
